-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1x1024 : Shape := ⟨2, ![1, 1024]⟩
abbrev S1x8192 : Shape := ⟨2, ![1, 8192]⟩
abbrev S1024x3 : Shape := ⟨2, ![1024, 3]⟩
abbrev S1024x1024 : Shape := ⟨2, ![1024, 1024]⟩
abbrev S1024x1 : Shape := ⟨2, ![1024, 1]⟩
abbrev S1024 : Shape := ⟨1, ![1024]⟩
abbrev S4x8192 : Shape := ⟨2, ![4, 8192]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v58 : BitVec 32 := Scalar.muli arg2 c1024_i32
  v58
def k0_off1 (i : grid0.Coords) : Fin 3 → Nat :=
  let c0_18 : Index := 0#32
  let c0_19 : Index := 0#32
  let arg2 : BitVec 32 := BitVec.ofNat 32 (i 2).val
  let c1024_i32 : BitVec 32 := 1024#32
  let v58 : BitVec 32 := Scalar.muli arg2 c1024_i32
  let v59 : BitVec 32 := v58
  let v60 : Index := Scalar.indexCast v59
  ![0, 0, v60.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  shapeCasts_S1024x1_S1024 : S1024x1.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S1024x3_o0_2_S1024x1 : S1024x3.Slices ![0, 2] S1024x1
  reduces_S1024x1024_S1024 : S1024x1024.Reduces [1] S1024
  reduces_S1024x1024_S1024_2 : S1024x1024.Reduces [0] S1024
  shapeCasts_S4x1x8192_S4x8192 : S4x1x8192.ShapeCasts S4x8192
  reducesTo_S4x8192_S_d0_1 : S4x8192.ReducesTo [0, 1] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KernelBody.Step.lean ====
/-
  One grid point of the fused nearest-neighbour kernel, as functions of what the point finds.

  A point (b, i, j) holds a tile of 1024 points of the first cloud (rows 1024·i …) and a tile of 1024 points of the
  second (rows 1024·j …). Its body forms the 1024 × 1024 table of clamped squared distances between them and
  folds it two ways: each row's minimum into the running minima of the first cloud's tile (`stepX`: the whole
  1024-entry block is replaced), and each column's minimum into the 1024 entries, at columns 1024·j …, of the running
  minima of the second cloud's whole batch row (`stepY`: that slice alone is replaced, the other 7168 entries stay).
  At j = 0 the first running block starts from +∞, at i = j = 0 the second does.
-/
import proofs.«153669_j28114855920185_2_alg».proof.Proof.Gen.Kernel.Frame
import proofs.«153669_j28114855920185_2_alg».proof.Proof.Gen.Kernel.Skeleton
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen Cert.Kernel.Facts₀

variable {F : FTy → Type} [FloatOps F]

/-- The body's first branch is taken: the point's third coordinate is 0. -/
abbrev resetX (i : grid0.Coords) : Prop := (Scalar.cmpi .ne (Scalar.extui (Scalar.cmpi .eq (BitVec.ofNat 32 (i 2).val) 0#32)) 0#32) = 1#1
/-- The body's second branch is taken: the point's second and third coordinates are both 0. -/
abbrev resetY (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- In the row-major order of the 4 × 8 × 8 grid the third coordinate is 0 at every eighth point, -/
theorem resetX_iff : ∀ t : Fin cfg0.N, resetX (grid0.coords t) ↔ t.val % 8 = 0 :=
  (by decide +kernel : ∀ t : Fin grid0.N, resetX (grid0.coords t) ↔ t.val % 8 = 0)
/-- and the last two are both 0 at every sixty-fourth. -/
theorem resetY_iff : ∀ t : Fin cfg0.N, resetY (grid0.coords t) ↔ t.val % 64 = 0 :=
  (by decide +kernel : ∀ t : Fin grid0.N, resetY (grid0.coords t) ↔ t.val % 64 = 0)

theorem zero3 : (![0, 0, 0] : Fin 3 → ℕ) = fun _ => 0 := by
  funext a; match a with | ⟨0, _⟩ => rfl | ⟨1, _⟩ => rfl | ⟨2, _⟩ => rfl

/-- The running minima of the first cloud's tile after a point that found `p` there: `p` against the row minima
    of the point's table. -/
def stepX (x0 x1 : Vec F S1x1024x3 .f32) (p : Vec F S1x1x1024 .f32) : Vec F S1x1x1024 .f32 :=
  k0_pay2 (k0_pay8 x0 x1) (k0_pay9 x0) (k0_pay10 x1) p

/-- The 1024 columns of the second cloud's batch row that point `i` works on. -/
abbrev colRect (i : grid0.Coords) : Rect S1x1x8192 := Rect.unit (s := S1x1x8192) (k0_off1 i) S1x1x1024.size (Facts₀.k0_off1_inb i)

/-- That slice of a batch row. -/
def getY (i : grid0.Coords) (q : Vec F S1x1x8192 .f32) : Vec F S1x1x1024 .f32 := View.ld q (colRect i)

/-- A batch row with that slice replaced by `P`. -/
def putY (i : grid0.Coords) (q : Vec F S1x1x8192 .f32) (P : Vec F S1x1x1024 .f32) : Vec F S1x1x8192 .f32 := fun y =>
  if h : ∀ a, (k0_off1 i) a ≤ (y a).val ∧ (y a).val < (k0_off1 i) a + S1x1x1024.size a then
    P (Rect.unitLocal (s := S1x1x8192) (off := k0_off1 i) (size := S1x1x1024.size) y h)
  else q y

/-- The running minima of the second cloud's batch row after a point that found `q` there: on the point's slice,
    `q` against the column minima of the point's table. -/
def stepY (i : grid0.Coords) (x0 x1 : Vec F S1x1024x3 .f32) (q : Vec F S1x1x8192 .f32) : Vec F S1x1x8192 .f32 :=
  putY i q (k0_pay3 (k0_pay8 x0 x1) (k0_pay9 x0) (k0_pay10 x1) (getY i q))

/-- A store of a whole block, made last, leaves its payload, whatever was stored before. -/
theorem read_store_whole {S : Shape} (mr : Memref sig .tc .vmem S .f32) {off : Fin S.rank → ℕ} (hz : off = fun _ => 0)
    (inb : ∀ a, off a + S.size a ≤ S.size a) (f : mr.view.ty.Contents (Elt F)) (P : S.Idx → Elt F .f32)
    (L : List (View.Piece (Elt F) S .f32)) :
    mr.view.read (Elt F) (mr.view.writes (Elt F) f ((⟨Rect.unit off S.size inb, P⟩ : View.Piece (Elt F) S .f32) :: L)) = P := by
  rw [View.read_writes_eq_canon _ _ _ (fun y => ⟨_, List.mem_cons.mpr (Or.inl rfl), View.mem_set_unit_zero hz inb y⟩),
    View.canon_cons_unit_zero hz]

/-- A store into the point's slice of a batch row, made last over contents that read `q`, leaves `putY`. -/
theorem read_store_slice (mr : Memref sig .tc .vmem S1x1x8192 .f32) (i : grid0.Coords) (f : mr.view.ty.Contents (Elt F))
    (P : Vec F S1x1x1024 .f32) (L : List (View.Piece (Elt F) S1x1x8192 .f32)) (q : Vec F S1x1x8192 .f32)
    (hq : mr.view.read (Elt F) (mr.view.writes (Elt F) f L) = q) :
    mr.view.read (Elt F) (mr.view.writes (Elt F) f ((⟨colRect i, P⟩ : View.Piece (Elt F) S1x1x8192 .f32) :: L)) = putY i q P := by
  funext y
  rw [View.read_writes_cons_unit mr.view f (Facts₀.k0_off1_inb i) P L y rfl, hq]
  rfl

/-- After one store of a whole batch row, a load of the point's slice reads that slice of the stored row. -/
theorem readCov_whole_slice (mr : Memref sig .tc .vmem S1x1x8192 .f32) (i : grid0.Coords) (P : Vec F S1x1x8192 .f32)
    {off : Fin S1x1x8192.rank → ℕ} (hz : off = fun _ => 0) (inb : ∀ a, off a + S1x1x8192.size a ≤ S1x1x8192.size a) :
    mr.view.readAt (Elt F) (colRect i).toLoadRect
        (mr.view.writes (Elt F) mr.view.junk [(⟨Rect.unit off S1x1x8192.size inb, P⟩ : View.Piece (Elt F) S1x1x8192 .f32)]) = getY i P := by
  show mr.view.readCov [(⟨Rect.unit off S1x1x8192.size inb, P⟩ : View.Piece (Elt F) S1x1x8192 .f32)] (colRect i).toLoadRect = getY i P
  rw [View.readCov_eq_canon', View.canon_unit_zero hz]
  rfl

end Cert.Kernel.Hand

end
-- ==== Proof.KernelBody.Runs.lean ====
/-
  The kernel body run at one grid point, in each of the three cases of its two branches: from staging buffers holding
  the point's two input tiles and what the two running-minimum blocks held, it ends with the inputs in place, the
  first block at `stepX` and the second at `stepY` of what they started from — from +∞ where the branch that fills
  the block is taken (the block's contents before the point are then never used).
-/
import proofs.«153669_j28114855920185_2_alg».proof.Proof.KernelBody.Step

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen Cert.Kernel.Facts₀

variable {F : FTy → Type} [FloatOps F]

local notation "𝕄" => MT nD τ sig Unit (Elt F) ℕ (UR sig nD τ) ℕ

set_option maxHeartbeats 1000000 in
/-- The first point of a batch (i = j = 0): both running blocks are filled with +∞ and then folded into. -/
theorem run_first (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : resetX i) (hc1 : resetY i)
    (x0 : Vec F S1x1024x3 .f32) (x1 : Vec F S1x1024x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (stepX x0 x1 (k0_pay4 (F := F))) ∗ owns (c : Thread nD τ) arg6 fullShare (stepY i x0 x1 (k0_pay5 (F := F)))) -∗ K ⟨⟩))
          ⊢ wp frame (wpE (defs₀ (F := F)) Variants.none c none) E (cc0__chamfer_fused_kernel i arg3 harg3 arg4 harg4 arg5 harg5 arg6 harg6) K := by
    intro E K
    simp only [cc0__chamfer_fused_kernel_eq_skeleton]; unfold cc0__chamfer_fused_kernel_skel
    simp only [k0_part1_eq_skeleton]
    unfold owns
    iintro ⟨⟨%f0, %hf0, H0⟩, ⟨%f1, %hf1, H1⟩, ⟨%d2, %f2, %hf2, H2⟩, ⟨%d3, %f3, %hf3, H3⟩, Hk⟩
    obtain rfl := harg3.eq_unread hf0; obtain rfl := harg4.eq_unread hf1

    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      refine (read_store_whole (S := S1x1x1024) arg5 zero3 _ _ _ _).trans ?_
      unfold stepX
      sl_unfold_run_names
      rw [View.readCov_unit_zero (S := S1x1x1024) arg5.view zero3]
      simp only [View.readAt_eq_ld, Memref.IsWhole.read_unread, View.ld_unit_zero (S := S1x1024x3) zero3, View.ld_unit_zero (S := S1x1x1024) zero3]
    iexists _; isplitr; swap; · iexact H3
    ipureintro
    refine (read_store_slice arg6 i _ _ _ (k0_pay5 (F := F)) ?hq).trans ?_
    case hq => sl_unfold_run_names; exact read_store_whole (S := S1x1x8192) arg6 zero3 _ _ _ []
    unfold stepY
    sl_unfold_run_names
    rw [readCov_whole_slice arg6 i _ zero3]
    simp only [View.readAt_eq_ld, Memref.IsWhole.read_unread, View.ld_unit_zero (S := S1x1024x3) zero3, View.ld_unit_zero (S := S1x1x1024) zero3]

set_option maxHeartbeats 1000000 in
/-- The first point of a later row of tiles (j = 0, i ≠ 0): the first cloud's block starts from +∞, the second cloud's batch row goes on from what it held. -/
theorem run_newRow (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : resetX i) (hc1 : ¬resetY i)
    (x0 : Vec F S1x1024x3 .f32) (x1 : Vec F S1x1024x3 .f32) (xo3 : Vec F S1x1x8192 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (stepX x0 x1 (k0_pay4 (F := F))) ∗ owns (c : Thread nD τ) arg6 fullShare (stepY i x0 x1 xo3)) -∗ K ⟨⟩))
          ⊢ wp frame (wpE (defs₀ (F := F)) Variants.none c none) E (cc0__chamfer_fused_kernel i arg3 harg3 arg4 harg4 arg5 harg5 arg6 harg6) K := by
    intro E K
    simp only [cc0__chamfer_fused_kernel_eq_skeleton]; unfold cc0__chamfer_fused_kernel_skel
    simp only [k0_part1_eq_skeleton]
    unfold owns
    iintro ⟨⟨%f0, %hf0, H0⟩, ⟨%f1, %hf1, H1⟩, ⟨%d2, %f2, %hf2, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      refine (read_store_whole (S := S1x1x1024) arg5 zero3 _ _ _ _).trans ?_
      unfold stepX
      sl_unfold_run_names
      rw [View.readCov_unit_zero (S := S1x1x1024) arg5.view zero3]
      simp only [View.readAt_eq_ld, Memref.IsWhole.read_unread, View.ld_unit_zero (S := S1x1024x3) zero3, View.ld_unit_zero (S := S1x1x1024) zero3]
    iexists _; isplitr; swap; · iexact H3
    ipureintro
    refine (read_store_slice arg6 i _ _ [] xo3 (harg6.read_unread xo3)).trans ?_
    unfold stepY getY
    sl_unfold_run_names
    simp only [View.readAt_eq_ld, Memref.IsWhole.read_unread, View.ld_unit_zero (S := S1x1024x3) zero3, View.ld_unit_zero (S := S1x1x1024) zero3]

set_option maxHeartbeats 1000000 in
/-- Every other point (j ≠ 0): both blocks go on from what they held. -/
theorem run_inner (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : ¬resetX i) (hc1 : ¬resetY i)
    (x0 : Vec F S1x1024x3 .f32) (x1 : Vec F S1x1024x3 .f32) (xo2 : Vec F S1x1x1024 .f32) (xo3 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (stepX x0 x1 xo2) ∗ owns (c : Thread nD τ) arg6 fullShare (stepY i x0 x1 xo3)) -∗ K ⟨⟩))
          ⊢ wp frame (wpE (defs₀ (F := F)) Variants.none c none) E (cc0__chamfer_fused_kernel i arg3 harg3 arg4 harg4 arg5 harg5 arg6 harg6) K := by
    intro E K
    simp only [cc0__chamfer_fused_kernel_eq_skeleton]; unfold cc0__chamfer_fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      refine (read_store_whole (S := S1x1x1024) arg5 zero3 _ _ _ _).trans ?_
      unfold stepX
      sl_unfold_run_names
      simp only [View.readAt_eq_ld, Memref.IsWhole.read_unread, View.ld_unit_zero (S := S1x1024x3) zero3, View.ld_unit_zero (S := S1x1x1024) zero3]
    iexists _; isplitr; swap; · iexact H3
    ipureintro
    refine (read_store_slice arg6 i _ _ [] xo3 (harg6.read_unread xo3)).trans ?_
    unfold stepY getY
    sl_unfold_run_names
    simp only [View.readAt_eq_ld, Memref.IsWhole.read_unread, View.ld_unit_zero (S := S1x1024x3) zero3, View.ld_unit_zero (S := S1x1x1024) zero3]

end Cert.Kernel.Hand

end
-- ==== Proof.KernelBody.Data.lean ====
/-
  The pipeline's proof data and its body obligation.

  The grid's 256 points run in row-major order of (b, i, j). The first cloud's running block belongs to (b, i): it is
  started at j = 0, folded into at the eight points of that row of tiles, and written back after j = 7. The second
  cloud's running batch row belongs to b: it is started at i = j = 0, folded into (one slice per point) at the batch's
  64 points, and written back after the last of them. `outX` and `outY` say what the two staging buffers hold
  after each point, by recursion on the point; between two points of one row (of one batch) the buffer is not
  written back, so a point finds what the point before left.
-/
import proofs.«153669_j28114855920185_2_alg».proof.Proof.KernelBody.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two running blocks hold after each point -/

/-- The first cloud's running block after point `n`: started from +∞ at every eighth point. -/
def outX (c : Dev nD) : (n : ℕ) → n < cfg0.N → Vec F S1x1x1024 .f32
  | 0, hn => stepX (iblk m c 0 ⟨0, hn⟩) (iblk m c 1 ⟨0, hn⟩) (k0_pay4 (F := F))
  | n + 1, hn => stepX (iblk m c 0 ⟨n + 1, hn⟩) (iblk m c 1 ⟨n + 1, hn⟩)
      (if (n + 1) % 8 = 0 then (k0_pay4 (F := F)) else outX c n (Nat.lt_of_succ_lt hn))

/-- The second cloud's running batch row after point `n`: started from +∞ at every sixty-fourth point. -/
def outY (c : Dev nD) : (n : ℕ) → n < cfg0.N → Vec F S1x1x8192 .f32
  | 0, hn => stepY (grid0.coords ⟨0, hn⟩) (iblk m c 0 ⟨0, hn⟩) (iblk m c 1 ⟨0, hn⟩) (k0_pay5 (F := F))
  | n + 1, hn => stepY (grid0.coords ⟨n + 1, hn⟩) (iblk m c 0 ⟨n + 1, hn⟩) (iblk m c 1 ⟨n + 1, hn⟩)
      (if (n + 1) % 64 = 0 then (k0_pay5 (F := F)) else outY c n (Nat.lt_of_succ_lt hn))

theorem outX_start (c : Dev nD) (t : Fin cfg0.N) (h : t.val % 8 = 0) :
    outX m c t.val t.isLt = stepX (iblk m c 0 t) (iblk m c 1 t) (k0_pay4 (F := F)) := by
  obtain ⟨n, hn⟩ := t
  cases n with
  | zero => rw [outX]
  | succ n => rw [outX, if_pos h]

theorem outX_next (c : Dev nD) (t : Fin cfg0.N) (h : ¬t.val % 8 = 0) :
    outX m c t.val t.isLt = stepX (iblk m c 0 t) (iblk m c 1 t) (outX m c (t.val - 1) (Nat.lt_of_le_of_lt (Nat.sub_le _ _) t.isLt)) := by
  obtain ⟨n, hn⟩ := t
  cases n with
  | zero => exact absurd (Nat.zero_mod _) h
  | succ n => rw [outX, if_neg h]; rfl

theorem outY_start (c : Dev nD) (t : Fin cfg0.N) (h : t.val % 64 = 0) :
    outY m c t.val t.isLt = stepY (grid0.coords t) (iblk m c 0 t) (iblk m c 1 t) (k0_pay5 (F := F)) := by
  obtain ⟨n, hn⟩ := t
  cases n with
  | zero => rw [outY]
  | succ n => rw [outY, if_pos h]

theorem outY_next (c : Dev nD) (t : Fin cfg0.N) (h : ¬t.val % 64 = 0) :
    outY m c t.val t.isLt = stepY (grid0.coords t) (iblk m c 0 t) (iblk m c 1 t) (outY m c (t.val - 1) (Nat.lt_of_le_of_lt (Nat.sub_le _ _) t.isLt)) := by
  obtain ⟨n, hn⟩ := t
  cases n with
  | zero => exact absurd (Nat.zero_mod _) h
  | succ n => rw [outY, if_neg h]; rfl

/-! ## The proof data -/

/-- On core `c`: the arrays as the region finds them; after the body at point `t` each input's buffer at its block,
    the two outputs' at `outX` and `outY`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX m c t.val t.isLt
    | ⟨3, _⟩ => outY m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outX m c t.val t.isLt := by dsimp only [dats]
theorem after_3 (c : Dev nD) (t : Fin cfg0.N) : (dats m 0 c).after 3 t = outY m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Inside a row of tiles (j ≠ 0) the first output's buffer holds what the point before left: it is written back only
    after j = 7. -/
theorem before_2 (c : Dev nD) (t : Fin cfg0.N) (h0 : ¬t.val % 8 = 0) (d) :
    (dats m 0 c).before 2 t d = outX m c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch (not i = j = 0) the second output's buffer holds what the point before left: it is written back
    only after the batch's last point. -/
theorem before_3 (c : Dev nD) (t : Fin cfg0.N) (h1 : ¬t.val % 64 = 0) (d) :
    (dats m 0 c).before 3 t d = outY m c (t.val - 1) (Nat.lt_of_le_of_lt (Nat.sub_le _ _) t.isLt) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1200000 in
/-- The body at any point: the inputs' buffers hold their blocks; the point's position in its row and batch says which
    branches are taken; an output whose branch is not taken holds what the point before left; so the run of that case
    applies and leaves `outX`, `outY` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  have hN : t.val < 256 := lt_of_lt_of_eq t.isLt (show cfg0.N = 256 from N_0)
  by_cases h0 : t.val % 8 = 0
  · by_cases h1 : t.val % 64 = 0
    · rw [outX_start m c t h0, outY_start m c t h1]
      iintro ⟨HΦ, Ho, ⟨%d0, H0⟩, ⟨%d1, H1⟩, ⟨%d2, H2⟩, ⟨%d3, H3⟩⟩
      iapply ((run_first c (grid0.coords t) _ _ _ _ _ _ _ _ ((resetX_iff t).mpr h0) ((resetY_iff t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outX_start m c t h0, outY_next m c t h1]
      simp only [before_3 m c t h1]
      iintro ⟨HΦ, Ho, ⟨%d0, H0⟩, ⟨%d1, H1⟩, ⟨%d2, H2⟩, ⟨%d3, H3⟩⟩
      iapply ((run_newRow c (grid0.coords t) _ _ _ _ _ _ _ _ ((resetX_iff t).mpr h0) (fun h => h1 ((resetY_iff t).mp h)) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := fun h => h0 (by omega)
    rw [outX_next m c t h0, outY_next m c t h1]
    simp only [before_2 m c t h0, before_3 m c t h1]
    iintro ⟨HΦ, Ho, ⟨%d0, H0⟩, ⟨%d1, H1⟩, ⟨%d2, H2⟩, ⟨%d3, H3⟩⟩
    iapply ((run_inner c (grid0.coords t) _ _ _ _ _ _ _ _ (fun h => h0 ((resetX_iff t).mp h)) (fun h => h1 ((resetY_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the write-backs make
    of the proof data, and every other unscoped buffer at what the host operations after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KernelIdealBody.Step.lean ====
/-
  One grid point of the fused nearest-neighbour kernel, as functions of what the point finds.

  A point (b, i, j) holds a tile of 1024 points of the first cloud (rows 1024·i …) and a tile of 1024 points of the
  second (rows 1024·j …). Its body forms the 1024 × 1024 table of clamped squared distances between them and
  folds it two ways: each row's minimum into the running minima of the first cloud's tile (`stepX`: the whole
  1024-entry block is replaced), and each column's minimum into the 1024 entries, at columns 1024·j …, of the running
  minima of the second cloud's whole batch row (`stepY`: that slice alone is replaced, the other 7168 entries stay).
  At j = 0 the first running block starts from +∞, at i = j = 0 the second does.
-/
import proofs.«153669_j28114855920185_2_alg».proof.Proof.Gen.KernelIdeal.Frame
import proofs.«153669_j28114855920185_2_alg».proof.Proof.Gen.KernelIdeal.Skeleton
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Facts₀

variable {F : FTy → Type} [FloatOps F]

/-- The body's first branch is taken: the point's third coordinate is 0. -/
abbrev resetX (i : grid0.Coords) : Prop := (Scalar.cmpi .ne (Scalar.extui (Scalar.cmpi .eq (BitVec.ofNat 32 (i 2).val) 0#32)) 0#32) = 1#1
/-- The body's second branch is taken: the point's second and third coordinates are both 0. -/
abbrev resetY (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- In the row-major order of the 4 × 8 × 8 grid the third coordinate is 0 at every eighth point, -/
theorem resetX_iff : ∀ t : Fin cfg0.N, resetX (grid0.coords t) ↔ t.val % 8 = 0 :=
  (by decide +kernel : ∀ t : Fin grid0.N, resetX (grid0.coords t) ↔ t.val % 8 = 0)
/-- and the last two are both 0 at every sixty-fourth. -/
theorem resetY_iff : ∀ t : Fin cfg0.N, resetY (grid0.coords t) ↔ t.val % 64 = 0 :=
  (by decide +kernel : ∀ t : Fin grid0.N, resetY (grid0.coords t) ↔ t.val % 64 = 0)

theorem zero3 : (![0, 0, 0] : Fin 3 → ℕ) = fun _ => 0 := by
  funext a; match a with | ⟨0, _⟩ => rfl | ⟨1, _⟩ => rfl | ⟨2, _⟩ => rfl

/-- The running minima of the first cloud's tile after a point that found `p` there: `p` against the row minima
    of the point's table. -/
def stepX (x0 x1 : Vec F S1x1024x3 .f32) (p : Vec F S1x1x1024 .f32) : Vec F S1x1x1024 .f32 :=
  k0_pay2 (k0_pay8 x0 x1) (k0_pay9 x0) (k0_pay10 x1) p

/-- The 1024 columns of the second cloud's batch row that point `i` works on. -/
abbrev colRect (i : grid0.Coords) : Rect S1x1x8192 := Rect.unit (s := S1x1x8192) (k0_off1 i) S1x1x1024.size (Facts₀.k0_off1_inb i)

/-- That slice of a batch row. -/
def getY (i : grid0.Coords) (q : Vec F S1x1x8192 .f32) : Vec F S1x1x1024 .f32 := View.ld q (colRect i)

/-- A batch row with that slice replaced by `P`. -/
def putY (i : grid0.Coords) (q : Vec F S1x1x8192 .f32) (P : Vec F S1x1x1024 .f32) : Vec F S1x1x8192 .f32 := fun y =>
  if h : ∀ a, (k0_off1 i) a ≤ (y a).val ∧ (y a).val < (k0_off1 i) a + S1x1x1024.size a then
    P (Rect.unitLocal (s := S1x1x8192) (off := k0_off1 i) (size := S1x1x1024.size) y h)
  else q y

/-- The running minima of the second cloud's batch row after a point that found `q` there: on the point's slice,
    `q` against the column minima of the point's table. -/
def stepY (i : grid0.Coords) (x0 x1 : Vec F S1x1024x3 .f32) (q : Vec F S1x1x8192 .f32) : Vec F S1x1x8192 .f32 :=
  putY i q (k0_pay3 (k0_pay8 x0 x1) (k0_pay9 x0) (k0_pay10 x1) (getY i q))

/-- A store of a whole block, made last, leaves its payload, whatever was stored before. -/
theorem read_store_whole {S : Shape} (mr : Memref sig .tc .vmem S .f32) {off : Fin S.rank → ℕ} (hz : off = fun _ => 0)
    (inb : ∀ a, off a + S.size a ≤ S.size a) (f : mr.view.ty.Contents (Elt F)) (P : S.Idx → Elt F .f32)
    (L : List (View.Piece (Elt F) S .f32)) :
    mr.view.read (Elt F) (mr.view.writes (Elt F) f ((⟨Rect.unit off S.size inb, P⟩ : View.Piece (Elt F) S .f32) :: L)) = P := by
  rw [View.read_writes_eq_canon _ _ _ (fun y => ⟨_, List.mem_cons.mpr (Or.inl rfl), View.mem_set_unit_zero hz inb y⟩),
    View.canon_cons_unit_zero hz]

/-- A store into the point's slice of a batch row, made last over contents that read `q`, leaves `putY`. -/
theorem read_store_slice (mr : Memref sig .tc .vmem S1x1x8192 .f32) (i : grid0.Coords) (f : mr.view.ty.Contents (Elt F))
    (P : Vec F S1x1x1024 .f32) (L : List (View.Piece (Elt F) S1x1x8192 .f32)) (q : Vec F S1x1x8192 .f32)
    (hq : mr.view.read (Elt F) (mr.view.writes (Elt F) f L) = q) :
    mr.view.read (Elt F) (mr.view.writes (Elt F) f ((⟨colRect i, P⟩ : View.Piece (Elt F) S1x1x8192 .f32) :: L)) = putY i q P := by
  funext y
  rw [View.read_writes_cons_unit mr.view f (Facts₀.k0_off1_inb i) P L y rfl, hq]
  rfl

/-- After one store of a whole batch row, a load of the point's slice reads that slice of the stored row. -/
theorem readCov_whole_slice (mr : Memref sig .tc .vmem S1x1x8192 .f32) (i : grid0.Coords) (P : Vec F S1x1x8192 .f32)
    {off : Fin S1x1x8192.rank → ℕ} (hz : off = fun _ => 0) (inb : ∀ a, off a + S1x1x8192.size a ≤ S1x1x8192.size a) :
    mr.view.readAt (Elt F) (colRect i).toLoadRect
        (mr.view.writes (Elt F) mr.view.junk [(⟨Rect.unit off S1x1x8192.size inb, P⟩ : View.Piece (Elt F) S1x1x8192 .f32)]) = getY i P := by
  show mr.view.readCov [(⟨Rect.unit off S1x1x8192.size inb, P⟩ : View.Piece (Elt F) S1x1x8192 .f32)] (colRect i).toLoadRect = getY i P
  rw [View.readCov_eq_canon', View.canon_unit_zero hz]
  rfl

end Cert.KernelIdeal.Hand

end
-- ==== Proof.KernelIdealBody.Runs.lean ====
/-
  The kernel body run at one grid point, in each of the three cases of its two branches: from staging buffers holding
  the point's two input tiles and what the two running-minimum blocks held, it ends with the inputs in place, the
  first block at `stepX` and the second at `stepY` of what they started from — from +∞ where the branch that fills
  the block is taken (the block's contents before the point are then never used).
-/
import proofs.«153669_j28114855920185_2_alg».proof.Proof.KernelIdealBody.Step

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Facts₀

variable {F : FTy → Type} [FloatOps F]

local notation "𝕄" => MT nD τ sig Unit (Elt F) ℕ (UR sig nD τ) ℕ

set_option maxHeartbeats 1000000 in
/-- The first point of a batch (i = j = 0): both running blocks are filled with +∞ and then folded into. -/
theorem run_first (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : resetX i) (hc1 : resetY i)
    (x0 : Vec F S1x1024x3 .f32) (x1 : Vec F S1x1024x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (stepX x0 x1 (k0_pay4 (F := F))) ∗ owns (c : Thread nD τ) arg6 fullShare (stepY i x0 x1 (k0_pay5 (F := F)))) -∗ K ⟨⟩))
          ⊢ wp frame (wpE (defs₀ (F := F)) Variants.none c none) E (cc0__chamfer_fused_kernel i arg3 harg3 arg4 harg4 arg5 harg5 arg6 harg6) K := by
    intro E K
    simp only [cc0__chamfer_fused_kernel_eq_skeleton]; unfold cc0__chamfer_fused_kernel_skel
    simp only [k0_part1_eq_skeleton]
    unfold owns
    iintro ⟨⟨%f0, %hf0, H0⟩, ⟨%f1, %hf1, H1⟩, ⟨%d2, %f2, %hf2, H2⟩, ⟨%d3, %f3, %hf3, H3⟩, Hk⟩
    obtain rfl := harg3.eq_unread hf0; obtain rfl := harg4.eq_unread hf1

    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      refine (read_store_whole (S := S1x1x1024) arg5 zero3 _ _ _ _).trans ?_
      unfold stepX
      sl_unfold_run_names
      rw [View.readCov_unit_zero (S := S1x1x1024) arg5.view zero3]
      simp only [View.readAt_eq_ld, Memref.IsWhole.read_unread, View.ld_unit_zero (S := S1x1024x3) zero3, View.ld_unit_zero (S := S1x1x1024) zero3]
    iexists _; isplitr; swap; · iexact H3
    ipureintro
    refine (read_store_slice arg6 i _ _ _ (k0_pay5 (F := F)) ?hq).trans ?_
    case hq => sl_unfold_run_names; exact read_store_whole (S := S1x1x8192) arg6 zero3 _ _ _ []
    unfold stepY
    sl_unfold_run_names
    rw [readCov_whole_slice arg6 i _ zero3]
    simp only [View.readAt_eq_ld, Memref.IsWhole.read_unread, View.ld_unit_zero (S := S1x1024x3) zero3, View.ld_unit_zero (S := S1x1x1024) zero3]

set_option maxHeartbeats 1000000 in
/-- The first point of a later row of tiles (j = 0, i ≠ 0): the first cloud's block starts from +∞, the second cloud's batch row goes on from what it held. -/
theorem run_newRow (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : resetX i) (hc1 : ¬resetY i)
    (x0 : Vec F S1x1024x3 .f32) (x1 : Vec F S1x1024x3 .f32) (xo3 : Vec F S1x1x8192 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (stepX x0 x1 (k0_pay4 (F := F))) ∗ owns (c : Thread nD τ) arg6 fullShare (stepY i x0 x1 xo3)) -∗ K ⟨⟩))
          ⊢ wp frame (wpE (defs₀ (F := F)) Variants.none c none) E (cc0__chamfer_fused_kernel i arg3 harg3 arg4 harg4 arg5 harg5 arg6 harg6) K := by
    intro E K
    simp only [cc0__chamfer_fused_kernel_eq_skeleton]; unfold cc0__chamfer_fused_kernel_skel
    simp only [k0_part1_eq_skeleton]
    unfold owns
    iintro ⟨⟨%f0, %hf0, H0⟩, ⟨%f1, %hf1, H1⟩, ⟨%d2, %f2, %hf2, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      refine (read_store_whole (S := S1x1x1024) arg5 zero3 _ _ _ _).trans ?_
      unfold stepX
      sl_unfold_run_names
      rw [View.readCov_unit_zero (S := S1x1x1024) arg5.view zero3]
      simp only [View.readAt_eq_ld, Memref.IsWhole.read_unread, View.ld_unit_zero (S := S1x1024x3) zero3, View.ld_unit_zero (S := S1x1x1024) zero3]
    iexists _; isplitr; swap; · iexact H3
    ipureintro
    refine (read_store_slice arg6 i _ _ [] xo3 (harg6.read_unread xo3)).trans ?_
    unfold stepY getY
    sl_unfold_run_names
    simp only [View.readAt_eq_ld, Memref.IsWhole.read_unread, View.ld_unit_zero (S := S1x1024x3) zero3, View.ld_unit_zero (S := S1x1x1024) zero3]

set_option maxHeartbeats 1000000 in
/-- Every other point (j ≠ 0): both blocks go on from what they held. -/
theorem run_inner (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : ¬resetX i) (hc1 : ¬resetY i)
    (x0 : Vec F S1x1024x3 .f32) (x1 : Vec F S1x1024x3 .f32) (xo2 : Vec F S1x1x1024 .f32) (xo3 : Vec F S1x1x8192 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (stepX x0 x1 xo2) ∗ owns (c : Thread nD τ) arg6 fullShare (stepY i x0 x1 xo3)) -∗ K ⟨⟩))
          ⊢ wp frame (wpE (defs₀ (F := F)) Variants.none c none) E (cc0__chamfer_fused_kernel i arg3 harg3 arg4 harg4 arg5 harg5 arg6 harg6) K := by
    intro E K
    simp only [cc0__chamfer_fused_kernel_eq_skeleton]; unfold cc0__chamfer_fused_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      refine (read_store_whole (S := S1x1x1024) arg5 zero3 _ _ _ _).trans ?_
      unfold stepX
      sl_unfold_run_names
      simp only [View.readAt_eq_ld, Memref.IsWhole.read_unread, View.ld_unit_zero (S := S1x1024x3) zero3, View.ld_unit_zero (S := S1x1x1024) zero3]
    iexists _; isplitr; swap; · iexact H3
    ipureintro
    refine (read_store_slice arg6 i _ _ [] xo3 (harg6.read_unread xo3)).trans ?_
    unfold stepY getY
    sl_unfold_run_names
    simp only [View.readAt_eq_ld, Memref.IsWhole.read_unread, View.ld_unit_zero (S := S1x1024x3) zero3, View.ld_unit_zero (S := S1x1x1024) zero3]

end Cert.KernelIdeal.Hand

end
-- ==== Proof.KernelIdealBody.Data.lean ====
/-
  The pipeline's proof data and its body obligation.

  The grid's 256 points run in row-major order of (b, i, j). The first cloud's running block belongs to (b, i): it is
  started at j = 0, folded into at the eight points of that row of tiles, and written back after j = 7. The second
  cloud's running batch row belongs to b: it is started at i = j = 0, folded into (one slice per point) at the batch's
  64 points, and written back after the last of them. `outX` and `outY` say what the two staging buffers hold
  after each point, by recursion on the point; between two points of one row (of one batch) the buffer is not
  written back, so a point finds what the point before left.
-/
import proofs.«153669_j28114855920185_2_alg».proof.Proof.KernelIdealBody.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two running blocks hold after each point -/

/-- The first cloud's running block after point `n`: started from +∞ at every eighth point. -/
def outX (c : Dev nD) : (n : ℕ) → n < cfg0.N → Vec F S1x1x1024 .f32
  | 0, hn => stepX (iblk m c 0 ⟨0, hn⟩) (iblk m c 1 ⟨0, hn⟩) (k0_pay4 (F := F))
  | n + 1, hn => stepX (iblk m c 0 ⟨n + 1, hn⟩) (iblk m c 1 ⟨n + 1, hn⟩)
      (if (n + 1) % 8 = 0 then (k0_pay4 (F := F)) else outX c n (Nat.lt_of_succ_lt hn))

/-- The second cloud's running batch row after point `n`: started from +∞ at every sixty-fourth point. -/
def outY (c : Dev nD) : (n : ℕ) → n < cfg0.N → Vec F S1x1x8192 .f32
  | 0, hn => stepY (grid0.coords ⟨0, hn⟩) (iblk m c 0 ⟨0, hn⟩) (iblk m c 1 ⟨0, hn⟩) (k0_pay5 (F := F))
  | n + 1, hn => stepY (grid0.coords ⟨n + 1, hn⟩) (iblk m c 0 ⟨n + 1, hn⟩) (iblk m c 1 ⟨n + 1, hn⟩)
      (if (n + 1) % 64 = 0 then (k0_pay5 (F := F)) else outY c n (Nat.lt_of_succ_lt hn))

theorem outX_start (c : Dev nD) (t : Fin cfg0.N) (h : t.val % 8 = 0) :
    outX m c t.val t.isLt = stepX (iblk m c 0 t) (iblk m c 1 t) (k0_pay4 (F := F)) := by
  obtain ⟨n, hn⟩ := t
  cases n with
  | zero => rw [outX]
  | succ n => rw [outX, if_pos h]

theorem outX_next (c : Dev nD) (t : Fin cfg0.N) (h : ¬t.val % 8 = 0) :
    outX m c t.val t.isLt = stepX (iblk m c 0 t) (iblk m c 1 t) (outX m c (t.val - 1) (Nat.lt_of_le_of_lt (Nat.sub_le _ _) t.isLt)) := by
  obtain ⟨n, hn⟩ := t
  cases n with
  | zero => exact absurd (Nat.zero_mod _) h
  | succ n => rw [outX, if_neg h]; rfl

theorem outY_start (c : Dev nD) (t : Fin cfg0.N) (h : t.val % 64 = 0) :
    outY m c t.val t.isLt = stepY (grid0.coords t) (iblk m c 0 t) (iblk m c 1 t) (k0_pay5 (F := F)) := by
  obtain ⟨n, hn⟩ := t
  cases n with
  | zero => rw [outY]
  | succ n => rw [outY, if_pos h]

theorem outY_next (c : Dev nD) (t : Fin cfg0.N) (h : ¬t.val % 64 = 0) :
    outY m c t.val t.isLt = stepY (grid0.coords t) (iblk m c 0 t) (iblk m c 1 t) (outY m c (t.val - 1) (Nat.lt_of_le_of_lt (Nat.sub_le _ _) t.isLt)) := by
  obtain ⟨n, hn⟩ := t
  cases n with
  | zero => exact absurd (Nat.zero_mod _) h
  | succ n => rw [outY, if_neg h]; rfl

/-! ## The proof data -/

/-- On core `c`: the arrays as the region finds them; after the body at point `t` each input's buffer at its block,
    the two outputs' at `outX` and `outY`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX m c t.val t.isLt
    | ⟨3, _⟩ => outY m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outX m c t.val t.isLt := by dsimp only [dats]
theorem after_3 (c : Dev nD) (t : Fin cfg0.N) : (dats m 0 c).after 3 t = outY m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Inside a row of tiles (j ≠ 0) the first output's buffer holds what the point before left: it is written back only
    after j = 7. -/
theorem before_2 (c : Dev nD) (t : Fin cfg0.N) (h0 : ¬t.val % 8 = 0) (d) :
    (dats m 0 c).before 2 t d = outX m c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch (not i = j = 0) the second output's buffer holds what the point before left: it is written back
    only after the batch's last point. -/
theorem before_3 (c : Dev nD) (t : Fin cfg0.N) (h1 : ¬t.val % 64 = 0) (d) :
    (dats m 0 c).before 3 t d = outY m c (t.val - 1) (Nat.lt_of_le_of_lt (Nat.sub_le _ _) t.isLt) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1200000 in
/-- The body at any point: the inputs' buffers hold their blocks; the point's position in its row and batch says which
    branches are taken; an output whose branch is not taken holds what the point before left; so the run of that case
    applies and leaves `outX`, `outY` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  have hN : t.val < 256 := lt_of_lt_of_eq t.isLt (show cfg0.N = 256 from N_0)
  by_cases h0 : t.val % 8 = 0
  · by_cases h1 : t.val % 64 = 0
    · rw [outX_start m c t h0, outY_start m c t h1]
      iintro ⟨HΦ, Ho, ⟨%d0, H0⟩, ⟨%d1, H1⟩, ⟨%d2, H2⟩, ⟨%d3, H3⟩⟩
      iapply ((run_first c (grid0.coords t) _ _ _ _ _ _ _ _ ((resetX_iff t).mpr h0) ((resetY_iff t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outX_start m c t h0, outY_next m c t h1]
      simp only [before_3 m c t h1]
      iintro ⟨HΦ, Ho, ⟨%d0, H0⟩, ⟨%d1, H1⟩, ⟨%d2, H2⟩, ⟨%d3, H3⟩⟩
      iapply ((run_newRow c (grid0.coords t) _ _ _ _ _ _ _ _ ((resetX_iff t).mpr h0) (fun h => h1 ((resetY_iff t).mp h)) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := fun h => h0 (by omega)
    rw [outX_next m c t h0, outY_next m c t h1]
    simp only [before_2 m c t h0, before_3 m c t h1]
    iintro ⟨HΦ, Ho, ⟨%d0, H0⟩, ⟨%d1, H1⟩, ⟨%d2, H2⟩, ⟨%d3, H3⟩⟩
    iapply ((run_inner c (grid0.coords t) _ _ _ _ _ _ _ _ (fun h => h0 ((resetX_iff t).mp h)) (fun h => h1 ((resetY_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the write-backs make
    of the proof data, and every other unscoped buffer at what the host operations after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibColumnCast.lean ====
/-
  Columns of a matrix as flat vectors, read at an index.

  A matrix with a single column holds the same numbers as the flat vector of its rows: in row-major order entry
  (r, 0) of an n-by-1 matrix sits at position r * 1 + 0 = r, which is position r of a vector of length n. So
  reshaping between the two shapes moves no number: the vector's entry r is the matrix's entry (r, 0), in both
  directions. Cutting column c out of an n-by-2 matrix and flattening it therefore reads, at r, the matrix at (r, c).

  General in the number of rows and in the type of the entries.
-/
import Idealize.ShloMosaic.Lib.Pipeline.Value
import Idealize.ShloMosaic.Lib.ValueIdx
import Idealize.ShloMosaic.Lib.ValueLayout

noncomputable section

namespace Idealize.ShloMosaic.ColumnCast

open Idealize.ShloMosaic Idealize.ShloMosaic.ValueIdx

variable {α : Type} {n : Nat}

/-- FLATTENING a one-column matrix: entry r of the vector is entry (r, 0) of the matrix (same row-major position). -/
theorem flatten_column_apply (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r (0 : Fin 1)) :=
  shapeCast_apply v h (ix1 r) (ix2 r (0 : Fin 1))
    (by rw [Shape.rowMajor_val_two, Shape.rowMajor_val_one]; show r.val * 1 + 0 = r.val; omega)

/-- STANDING a vector up as a one-column matrix: the matrix's entry in row r (its only column) is entry r of the
    vector. Stated at any index y of the matrix whose row is r. -/
theorem stand_column_apply (v : (⟨1, ![n]⟩ : Shape).Idx → α)
    (h : (⟨1, ![n]⟩ : Shape).ShapeCasts ⟨2, ![n, 1]⟩) (y : (⟨2, ![n, 1]⟩ : Shape).Idx) (r : Fin n)
    (hy : (y 0).val = r.val) :
    shapeCast ⟨2, ![n, 1]⟩ v h y = v (ix1 r) :=
  shapeCast_apply v h y (ix1 r)
    (by
      rw [Shape.rowMajor_val_two, Shape.rowMajor_val_one]
      have h1 : (y 1).val < 1 := (y 1).isLt
      show r.val = (y 0).val * 1 + (y 1).val
      omega)

/-- COLUMN c of an n-by-2 matrix, cut out as a one-column matrix starting at column o = c and flattened, reads at
    r the matrix's entry (r, c). -/
theorem flat_column_apply (o : Nat) (X : (⟨2, ![n, 2]⟩ : Shape).Idx → α)
    (h : (⟨2, ![n, 2]⟩ : Shape).Slices ![0, o] ⟨2, ![n, 1]⟩)
    (h' : (⟨2, ![n, 1]⟩ : Shape).ShapeCasts ⟨1, ![n]⟩) (r : Fin n) (c : Fin 2) (hc : c.val = o) :
    shapeCast ⟨1, ![n]⟩ (extractStridedSlice ⟨2, ![n, 1]⟩ ![0, o] X h) h' (ix1 r) = X (ix2 r c) :=
  (flatten_column_apply _ h' r).trans
    (slice2_axis1_apply o X h r (0 : Fin 1) c (by rw [hc]; rfl))

end Idealize.ShloMosaic.ColumnCast

end
-- ==== Proof.ChamferLaw.lean ====
/-
  The law that joins the two programs.

  The kernel forms the squared distance of two points of ℝ³ coordinate by coordinate, adding each squared
  difference to a sum started at zero; the reference forms it as the sum of the two squared norms (each a sum started
  at zero) less twice the inner product. Both then clamp at zero. Over the real numbers the two are one number; over
  the extended reals they need not be (∞ − ∞), so the law is stated for entries that are real numbers.
-/
import Idealize.ShloMosaic.PureOps.Ideal
import Idealize.ShloMosaic.PureOps.Ideal.Laws

noncomputable section

namespace Cert.Chamfer

open Idealize.ShloMosaic

/-- (0 + (a₀-b₀)² + (a₁-b₁)² + (a₂-b₂)²) = (0 + a₀² + a₁² + a₂²) + (0 + b₀² + b₁² + b₂²) - 2·(a₀b₀ + a₁b₁ + a₂b₂), in ℝ. -/
theorem sq_dist_expand (a0 a1 a2 b0 b1 b2 : ℝ) :
    0 + (a0 - b0) * (a0 - b0) + (a1 - b1) * (a1 - b1) + (a2 - b2) * (a2 - b2)
      = ((0 + (a0 * a0 + a1 * a1 + a2 * a2)) + (0 + (b0 * b0 + b1 * b1 + b2 * b2))) - 2 * (a0 * b0 + a1 * b1 + a2 * b2) := by
  ring

/-- The float pattern of 2.0 denotes the real 2. -/
theorem ofBits_two : Ideal.ofBits .f32 0x40000000#32 = ((2 : ℝ) : EReal) := by
  simp [Ideal.ofBits, Ideal.ieee, -EReal.coe_mul]; norm_num

/-- The float pattern of +∞ denotes the top of the extended reals. -/
theorem ofBits_top : Ideal.ofBits .f32 0x7F800000#32 = (⊤ : EReal) := by
  simp [Ideal.ofBits, Ideal.ieee]

/-- The clamped squared distance as the kernel accumulates it. -/
def sqDist (a b : Fin 3 → EReal) : EReal :=
  max (0 + (a 0 - b 0) * (a 0 - b 0) + (a 1 - b 1) * (a 1 - b 1) + (a 2 - b 2) * (a 2 - b 2)) 0

/-- The clamped squared distance as the reference expands it. -/
def sqDistExpanded (a b : Fin 3 → EReal) : EReal :=
  max (((0 + ∑ k, a k * a k) + (0 + ∑ k, b k * b k)) - ((2 : ℝ) : EReal) * ∑ k, a k * b k) 0

/-- At real entries the two are equal. -/
theorem sqDist_eq_real (α β : Fin 3 → ℝ) :
    sqDist (fun k => (α k : EReal)) (fun k => (β k : EReal)) = sqDistExpanded (fun k => (α k : EReal)) (fun k => (β k : EReal)) := by
  unfold sqDist sqDistExpanded
  congr 1
  simp only [Fin.sum_univ_three]
  have h := sq_dist_expand (α 0) (α 1) (α 2) (β 0) (β 1) (β 2)
  exact_mod_cast congrArg (fun r : ℝ => (r : EReal)) h

/-- At entries that are neither infinity the two are equal. -/
theorem sqDist_eq (a b : Fin 3 → EReal) (ha : ∀ k, a k ≠ ⊤ ∧ a k ≠ ⊥) (hb : ∀ k, b k ≠ ⊤ ∧ b k ≠ ⊥) :
    sqDist a b = sqDistExpanded a b := by
  obtain ⟨α, rfl⟩ : ∃ α : Fin 3 → ℝ, a = fun k => (α k : EReal) :=
    ⟨fun k => (a k).toReal, funext fun k => (EReal.coe_toReal (ha k).1 (ha k).2).symm⟩
  obtain ⟨β, rfl⟩ : ∃ β : Fin 3 → ℝ, b = fun k => (β k : EReal) :=
    ⟨fun k => (b k).toReal, funext fun k => (EReal.coe_toReal (hb k).1 (hb k).2).symm⟩
  exact sqDist_eq_real α β

end Cert.Chamfer

end
-- ==== Proof.MinBlocks.lean ====
/-
  Minima over 8192 indices taken 1024 at a time.

  A running minimum that starts at +∞ and is lowered, block by block, by the minimum over one block of 1024
  consecutive indices ends, after all eight blocks, at the minimum over all 8192. Everything is stated through lower
  bounds: a number is below a minimum exactly when it is below every term, so two minima over the same terms are
  equal whatever order or grouping produced them.

  Two bookkeepings are needed. In the first the blocks come in order (block j at step j). In the second the index
  set is swept by a pair (i, j) in row-major order, position s = 8·i + j, and a fixed column of block jm is touched
  only at the positions with j = jm, where it meets block i of the rows.
-/
import Idealize.ShloMosaic.PureOps.Ideal

noncomputable section

namespace Cert.Chamfer

/-- A fold of `min` from +∞ over a whole finite type is the infimum. -/
theorem fold_min_top {ι : Type} [Fintype ι] (f : ι → EReal) : (Finset.univ : Finset ι).fold min ⊤ f = ⨅ k, f k :=
  eq_of_forall_le_iff fun c => by
    rw [Finset.le_fold_min, le_iInf_iff]
    exact ⟨fun h k => h.2 k (Finset.mem_univ k), fun h => ⟨le_top, fun k _ => h k⟩⟩

variable (g : Fin 8192 → EReal)

/-! ## Blocks in order -/

/-- The minimum of `g` over the indices in blocks below `j`. -/
def minBelow (j : ℕ) : EReal := ⨅ (n : Fin 8192) (_ : n.val / 1024 < j), g n

theorem le_minBelow_iff (c : EReal) (j : ℕ) : c ≤ minBelow g j ↔ ∀ n : Fin 8192, n.val / 1024 < j → c ≤ g n := by
  unfold minBelow; simp only [le_iInf_iff]

/-- Below block 0 there is nothing: +∞. -/
theorem minBelow_zero : minBelow g 0 = ⊤ :=
  eq_top_iff.mpr ((le_minBelow_iff g ⊤ 0).mpr fun n h => absurd h (Nat.not_lt_zero _))

/-- Lowering by block `j`'s minimum moves the bound from `j` to `j + 1`. -/
theorem minBelow_step (j : ℕ) (hj : j < 8) :
    min (minBelow g j) (⨅ cc : Fin 1024, g ⟨1024 * j + cc.val, by have := cc.isLt; omega⟩) = minBelow g (j + 1) := by
  refine eq_of_forall_le_iff fun c => ?_
  rw [le_min_iff, le_minBelow_iff, le_minBelow_iff, le_iInf_iff]
  constructor
  · rintro ⟨h1, h2⟩ n hn
    by_cases h : n.val / 1024 < j
    · exact h1 n h
    · have hq : n.val / 1024 = j := by omega
      have e : (⟨1024 * j + n.val % 1024, by have := n.isLt; omega⟩ : Fin 8192) = n :=
        Fin.ext (by show 1024 * j + n.val % 1024 = n.val; omega)
      have := h2 ⟨n.val % 1024, Nat.mod_lt _ (by norm_num)⟩
      exact e ▸ this
  · intro h
    exact ⟨fun n hn => h n (by omega), fun cc => h _ (by show (1024 * j + cc.val) / 1024 < j + 1; have := cc.isLt; omega)⟩

/-- All eight blocks: the minimum over every index. -/
theorem minBelow_all : minBelow g 8 = ⨅ n, g n := by
  refine eq_of_forall_le_iff fun c => ?_
  rw [le_minBelow_iff, le_iInf_iff]
  exact ⟨fun h n => h n (by have := n.isLt; omega), fun h n _ => h n⟩

/-! ## Blocks met along a row-major sweep -/

/-- The minimum of `g` over the indices whose block `i` has been paired with column block `jm` before position `s`
    of the sweep (position of the pair (i, jm) is 8·i + jm). -/
def minBefore (jm s : ℕ) : EReal := ⨅ (n : Fin 8192) (_ : 8 * (n.val / 1024) + jm < s), g n

theorem le_minBefore_iff (c : EReal) (jm s : ℕ) :
    c ≤ minBefore g jm s ↔ ∀ n : Fin 8192, 8 * (n.val / 1024) + jm < s → c ≤ g n := by
  unfold minBefore; simp only [le_iInf_iff]

/-- Before the sweep starts: +∞. -/
theorem minBefore_zero (jm : ℕ) : minBefore g jm 0 = ⊤ :=
  eq_top_iff.mpr ((le_minBefore_iff g ⊤ jm 0).mpr fun n h => absurd h (Nat.not_lt_zero _))

/-- At a position whose column block is `jm`, lowering by the minimum over row block `s / 8` moves the bound on. -/
theorem minBefore_hit (jm s : ℕ) (hs : s < 64) (h : jm = s % 8) :
    min (minBefore g jm s) (⨅ r : Fin 1024, g ⟨1024 * (s / 8) + r.val, by have := r.isLt; omega⟩) = minBefore g jm (s + 1) := by
  refine eq_of_forall_le_iff fun c => ?_
  rw [le_min_iff, le_minBefore_iff, le_minBefore_iff, le_iInf_iff]
  constructor
  · rintro ⟨h1, h2⟩ n hn
    by_cases hlt : 8 * (n.val / 1024) + jm < s
    · exact h1 n hlt
    · have hq : n.val / 1024 = s / 8 := by omega
      have e : (⟨1024 * (s / 8) + n.val % 1024, by have := n.isLt; omega⟩ : Fin 8192) = n :=
        Fin.ext (by show 1024 * (s / 8) + n.val % 1024 = n.val; omega)
      have := h2 ⟨n.val % 1024, Nat.mod_lt _ (by norm_num)⟩
      exact e ▸ this
  · intro hh
    exact ⟨fun n hn => hh n (by omega),
      fun r => hh _ (by show 8 * ((1024 * (s / 8) + r.val) / 1024) + jm < s + 1; have := r.isLt; omega)⟩

/-- At a position whose column block is not `jm` nothing changes. -/
theorem minBefore_miss (jm s : ℕ) (hjm : jm < 8) (h : jm ≠ s % 8) : minBefore g jm s = minBefore g jm (s + 1) := by
  refine eq_of_forall_le_iff fun c => ?_
  rw [le_minBefore_iff, le_minBefore_iff]
  exact ⟨fun hh n hn => hh n (by omega), fun hh n hn => hh n (by omega)⟩

/-- After all 64 positions: the minimum over every index. -/
theorem minBefore_all (jm : ℕ) (hjm : jm < 8) : minBefore g jm 64 = ⨅ n, g n := by
  refine eq_of_forall_le_iff fun c => ?_
  rw [le_minBefore_iff, le_iInf_iff]
  exact ⟨fun h n => h n (by have := n.isLt; omega), fun h n _ => h n⟩

end Cert.Chamfer

end
-- ==== Proof.KernelIdealValue.Tile.lean ====
/-
  One grid point's arithmetic, read entry by entry at the exact instance.

  Entry (r, c) of the point's table is the clamped squared distance between point r of the first tile and point c of
  the second: the body cuts coordinate d out of each tile as a column, lays the first tile's column down the rows and
  the second's along the columns, and accumulates the three squared differences from zero. The first running block is
  then lowered, entry r, by the minimum of row r of the table; the second, on the point's 1024-wide slice, entry c, by
  the minimum of column c.
-/
import proofs.«153669_j28114855920185_2_alg».proof.Proof.KernelIdealBody.Step
import proofs.«153669_j28114855920185_2_alg».proof.Proof.LibColumn
import proofs.«153669_j28114855920185_2_alg».proof.Proof.LibColumnCast
import proofs.«153669_j28114855920185_2_alg».proof.Proof.ChamferLaw
import proofs.«153669_j28114855920185_2_alg».proof.Proof.MinBlocks
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx Idealize.ShloMosaic.ColumnCast Cert.Lib.Column Cert.Chamfer
open Cert.KernelIdeal.Gen Cert.KernelIdeal.Facts₀

/-! ## A coordinate of a tile, laid down the rows or along the columns -/

/-- Coordinate `d` of a tile of points, cut out, flattened, stood up as a column and repeated along the columns,
    reads at (r, c) the tile's point r. -/
theorem col_entry {α : Type} (x : S1x1024x3.Idx → α) (o : ℕ) (d : Fin 3) (hd : d.val = o)
    (h1 : S1x1024x3.ShapeCasts S1024x3) (h2 : S1024x3.Slices ![0, o] S1024x1) (h3 : S1024x1.ShapeCasts S1024)
    (h4 : S1024.ShapeCasts S1024x1) (h5 : S1024x1.Broadcasts S1024x1024) (r c : Fin 1024) :
    broadcastTo S1024x1024 (shapeCast S1024x1 (shapeCast S1024 (extractStridedSlice S1024x1 ![0, o] (shapeCast S1024x3 x h1) h2) h3) h4) h5 (ix2 r c)
      = x (ix3 (0 : Fin 1) r d) :=
  (broadcastTo_a1_ab_apply _ h5 r c).trans <|
  (shapeCast_a_a1_apply _ h4 r 0).trans <|
  (flatten_column_apply _ h3 r).trans <|
  (slice2_axis1_apply o _ h2 r (0 : Fin 1) d (by subst hd; rfl)).trans <|
  shapeCast_1ab_ab_apply x h1 r d

/-- The same, laid out as a row and repeated down the rows, reads at (r, c) the tile's point c. -/
theorem row_entry {α : Type} (x : S1x1024x3.Idx → α) (o : ℕ) (d : Fin 3) (hd : d.val = o)
    (h1 : S1x1024x3.ShapeCasts S1024x3) (h2 : S1024x3.Slices ![0, o] S1024x1) (h3 : S1024x1.ShapeCasts S1024)
    (h4 : S1024.ShapeCasts S1x1024) (h5 : S1x1024.Broadcasts S1024x1024) (r c : Fin 1024) :
    broadcastTo S1024x1024 (shapeCast S1x1024 (shapeCast S1024 (extractStridedSlice S1024x1 ![0, o] (shapeCast S1024x3 x h1) h2) h3) h4) h5 (ix2 r c)
      = x (ix3 (0 : Fin 1) c d) :=
  (broadcastTo_1b_ab_apply _ h5 r c).trans <|
  (shapeCast_a_1a_apply _ h4 0 c).trans <|
  (flatten_column_apply _ h3 c).trans <|
  (slice2_axis1_apply o _ h2 c (0 : Fin 1) d (by subst hd; rfl)).trans <|
  shapeCast_1ab_ab_apply x h1 c d

/-! ## The table -/

/-- The point's table of clamped squared distances. -/
def tileD (x0 x1 : Vec Ideal S1x1024x3 .f32) : FVec Ideal S1024x1024 .f32 :=
  k0_pay1 (k0_pay8 x0 x1) (k0_pay9 x0) (k0_pay10 x1)

theorem tileD_apply (x0 x1 : Vec Ideal S1x1024x3 .f32) (r c : Fin 1024) :
    tileD x0 x1 (ix2 r c) = sqDist (fun k => x0 (ix3 (0 : Fin 1) r k)) (fun k => x1 (ix3 (0 : Fin 1) c k)) := by
  have c0 := col_entry x0 0 0 rfl Facts₀.shapeCasts_S1x1024x3_S1024x3 Facts₀.slices_S1024x3_o0_0_S1024x1 Facts₀.shapeCasts_S1024x1_S1024 Facts₀.shapeCasts_S1024_S1024x1 Facts₀.broadcasts_S1024x1_S1024x1024 r c
  have c1 := col_entry x0 1 1 rfl Facts₀.shapeCasts_S1x1024x3_S1024x3 Facts₀.slices_S1024x3_o0_1_S1024x1 Facts₀.shapeCasts_S1024x1_S1024 Facts₀.shapeCasts_S1024_S1024x1 Facts₀.broadcasts_S1024x1_S1024x1024 r c
  have c2 := col_entry x0 2 2 rfl Facts₀.shapeCasts_S1x1024x3_S1024x3 Facts₀.slices_S1024x3_o0_2_S1024x1 Facts₀.shapeCasts_S1024x1_S1024 Facts₀.shapeCasts_S1024_S1024x1 Facts₀.broadcasts_S1024x1_S1024x1024 r c
  have r0 := row_entry x1 0 0 rfl Facts₀.shapeCasts_S1x1024x3_S1024x3 Facts₀.slices_S1024x3_o0_0_S1024x1 Facts₀.shapeCasts_S1024x1_S1024 Facts₀.shapeCasts_S1024_S1x1024 Facts₀.broadcasts_S1x1024_S1024x1024 r c
  have r1 := row_entry x1 1 1 rfl Facts₀.shapeCasts_S1x1024x3_S1024x3 Facts₀.slices_S1024x3_o0_1_S1024x1 Facts₀.shapeCasts_S1024x1_S1024 Facts₀.shapeCasts_S1024_S1x1024 Facts₀.broadcasts_S1x1024_S1024x1024 r c
  have r2 := row_entry x1 2 2 rfl Facts₀.shapeCasts_S1x1024x3_S1024x3 Facts₀.slices_S1024x3_o0_2_S1024x1 Facts₀.shapeCasts_S1024x1_S1024 Facts₀.shapeCasts_S1024_S1x1024 Facts₀.broadcasts_S1x1024_S1024x1024 r c
  have hs : ∀ w : BitVec 32, Scalar.ofBits (F := Ideal) .f32 w = Ideal.ofBits .f32 w := fun _ => rfl
  unfold tileD k0_pay1 k0_pay8 k0_pay9 k0_pay10 k0_pay6 k0_pay7 sqDist
  simp only [maximumf_apply, addf_apply, subf_apply, mulf_apply, broadcast_apply, c0, c1, c2, r0, r1, r2,
    hs, Ideal.ofBits_zero_f32]

/-! ## The two reductions of the table -/

/-- The minimum along the columns of row r. -/
theorem rowMin_apply (T : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 T 0x7F800000#32 h hφ hacc (ix1 r) = ⨅ c : Fin 1024, T (ix2 r c) := by
  rw [multiReduction_minimumf_eq_fold]
  refine (h.fold_filter_drop_single _ _ T (ix1 r)).trans ?_
  rw [Ideal.ofBits_def, ofBits_top]
  refine (fold_min_top _).trans (iInf_congr fun c => congrArg T (funext fun a => Fin.ext ?_))
  match a with
  | ⟨0, _⟩ => rfl
  | ⟨1, _⟩ => rfl

/-- The minimum down the rows of column c. -/
theorem colMin_apply (T : FVec Ideal S1024x1024 .f32) (h : S1024x1024.Reduces [0] S1024) (hφ : FKind.Formats .f32)
    (hacc : (0x7F800000#32 : BitVec 32) = FKind.minimumf.neutral .f32 hφ) (c : Fin 1024) :
    multiReduction .minimumf [0] S1024 T 0x7F800000#32 h hφ hacc (ix1 c) = ⨅ r : Fin 1024, T (ix2 r c) := by
  rw [multiReduction_minimumf_eq_fold]
  refine (h.fold_filter_drop_single _ _ T (ix1 c)).trans ?_
  rw [Ideal.ofBits_def, ofBits_top]
  refine (fold_min_top _).trans (iInf_congr fun r => congrArg T (funext fun a => Fin.ext ?_))
  match a with
  | ⟨0, _⟩ => rfl
  | ⟨1, _⟩ => rfl

/-! ## The first running block after a point -/

theorem stepX_apply (x0 x1 : Vec Ideal S1x1024x3 .f32) (p : Vec Ideal S1x1x1024 .f32) (r : Fin 1024) :
    stepX x0 x1 p (ix3 (0 : Fin 1) (0 : Fin 1) r) = min (p (ix3 (0 : Fin 1) (0 : Fin 1) r)) (⨅ c : Fin 1024, tileD x0 x1 (ix2 r c)) := by
  unfold stepX k0_pay2
  refine (shapeCast_ab_1ab_apply _ Facts₀.shapeCasts_S1x1024_S1x1x1024 (0 : Fin 1) (0 : Fin 1) r).trans ?_
  refine congrArg₂ min ?_ ?_
  · exact shapeCast_1ab_ab_apply p Facts₀.shapeCasts_S1x1x1024_S1x1024 (0 : Fin 1) r
  · refine (shapeCast_a_1a_apply _ Facts₀.shapeCasts_S1024_S1x1024 (0 : Fin 1) r).trans ?_
    exact rowMin_apply _ _ _ _ r

end Cert.KernelIdeal.Hand

end
-- ==== Proof.KernelIdealValue.Blocks.lean ====
/-
  Where a grid point sits in the arrays.

  Point t of the 4 × 8 × 8 grid (row-major) is (b, i, j) = (t / 64, t / 8 mod 8, t mod 8). Its first tile is rows
  1024·i … of batch b of the first cloud, its second rows 1024·j … of batch b of the second; its slice of the second
  running batch row starts at column 1024·j. So entry (r, c) of its table is the clamped squared distance between point
  1024·i + r of the first cloud and point 1024·j + c of the second.
-/
import proofs.«153669_j28114855920185_2_alg».proof.Proof.KernelIdealBody.Data
import proofs.«153669_j28114855920185_2_alg».proof.Proof.KernelIdealValue.Tile
import Idealize.ShloMosaic.Lib.Pipeline.Value

set_option maxRecDepth 16384

noncomputable section

namespace Cert.KernelIdeal.Hand

open Idealize.ShloMosaic Idealize.ShloMosaic.TcCoe Idealize.ShloMosaic.ValueIdx Cert.Chamfer
open Idealize.SL.Sem
open Idealize.ShloMosaic.Pipeline (Dat Cfg Window)
open Cert.KernelIdeal.Gen Cert.KernelIdeal.Facts₀

variable (m : (ℓ : Loc nD τ sig) → Buf (Elt Ideal) ℓ)

theorem tlt (t : Fin cfg0.N) : t.val < 256 := lt_of_lt_of_eq t.isLt (show cfg0.N = 256 from N_0)

/-- The batch of point t, -/
def bOf (t : Fin cfg0.N) : Fin 4 := ⟨t.val / 64, by have := tlt t; omega⟩
/-- row r of its first tile as a row of the first cloud, -/
def rowX (t : Fin cfg0.N) (r : Fin 1024) : Fin 8192 := ⟨1024 * (t.val / 8 % 8) + r.val, by have := r.isLt; omega⟩
/-- and row c of its second tile as a row of the second cloud. -/
def rowY (t : Fin cfg0.N) (c : Fin 1024) : Fin 8192 := ⟨1024 * (t.val % 8) + c.val, by have := c.isLt; omega⟩

/-- The printed index maps, decided over the grid. -/
theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = 0 ∧ win0_2.index t (2 : Fin 3) = t.val / 8 % 8
    ∧ win0_3.index t (0 : Fin 3) = t.val / 64 ∧ win0_3.index t (1 : Fin 3) = 0 ∧ win0_3.index t (2 : Fin 3) = 0 :=
  (by decide +kernel : ∀ t : Fin grid0.N, _)

/-- The slice's offsets, decided over the grid. -/
theorem off_facts : ∀ t : Fin cfg0.N,
    k0_off1 (grid0.coords t) (0 : Fin 3) = 0 ∧ k0_off1 (grid0.coords t) (1 : Fin 3) = 0
    ∧ k0_off1 (grid0.coords t) (2 : Fin 3) = 1024 * (t.val % 8) :=
  (by decide +kernel : ∀ t : Fin grid0.N, _)

/-! ## The tiles -/

theorem iblk0_apply (c : Dev nD) (t : Fin cfg0.N) (r : Fin 1024) (k : Fin 3) :
    (iblk m c 0 t : S1x1024x3.Idx → EReal) (ix3 (0 : Fin 1) r k)
      = (V m c main_arg0 : S4x8192x3.Idx → EReal) (ix3 (bOf t) (rowX t r) k) := by
  obtain ⟨e0, e1, e2, -⟩ := idx_facts t
  show V m c main_arg0 (((cfg0.win 0).blk t).view.emb (ix3 (0 : Fin 1) r k)) = _
  refine congrArg (V m c main_arg0) (funext fun a => Fin.ext ?_)
  match a with
  | ⟨0, _⟩ => show win0_0.index t (0 : Fin 3) * 1 + 1 * 0 = t.val / 64; omega
  | ⟨1, _⟩ => show win0_0.index t (1 : Fin 3) * 1024 + 1 * r.val = 1024 * (t.val / 8 % 8) + r.val; omega
  | ⟨2, _⟩ => show win0_0.index t (2 : Fin 3) * 3 + 1 * k.val = k.val; omega

theorem iblk1_apply (c : Dev nD) (t : Fin cfg0.N) (r : Fin 1024) (k : Fin 3) :
    (iblk m c 1 t : S1x1024x3.Idx → EReal) (ix3 (0 : Fin 1) r k)
      = (V m c main_arg1 : S4x8192x3.Idx → EReal) (ix3 (bOf t) (rowY t r) k) := by
  obtain ⟨-, -, -, e0, e1, e2, -⟩ := idx_facts t
  show V m c main_arg1 (((cfg0.win 1).blk t).view.emb (ix3 (0 : Fin 1) r k)) = _
  refine congrArg (V m c main_arg1) (funext fun a => Fin.ext ?_)
  match a with
  | ⟨0, _⟩ => show win0_1.index t (0 : Fin 3) * 1 + 1 * 0 = t.val / 64; omega
  | ⟨1, _⟩ => show win0_1.index t (1 : Fin 3) * 1024 + 1 * r.val = 1024 * (t.val % 8) + r.val; omega
  | ⟨2, _⟩ => show win0_1.index t (2 : Fin 3) * 3 + 1 * k.val = k.val; omega

/-- The clamped squared distance between point n of the first cloud and point mm of the second, in batch b, of the
    arrays as the region finds them. -/
def dist (c : Dev nD) (b : Fin 4) (n mm : Fin 8192) : EReal :=
  sqDist (fun k => (V m c main_arg0 : S4x8192x3.Idx → EReal) (ix3 b n k))
    (fun k => (V m c main_arg1 : S4x8192x3.Idx → EReal) (ix3 b mm k))

/-- Entry (r, c) of point t's table. -/
theorem tile_at (c : Dev nD) (t : Fin cfg0.N) (r cc : Fin 1024) :
    tileD (iblk m c 0 t) (iblk m c 1 t) (ix2 r cc) = dist m c (bOf t) (rowX t r) (rowY t cc) := by
  refine (tileD_apply _ _ r cc).trans ?_
  unfold dist
  exact congrArg₂ sqDist (funext fun k => iblk0_apply m c t r k) (funext fun k => iblk1_apply m c t cc k)

/-! ## The fills -/

theorem pay4_apply (r : Fin 1024) : k0_pay4 (F := Ideal) (ix3 (0 : Fin 1) (0 : Fin 1) r) = (⊤ : EReal) := by
  unfold k0_pay4
  refine (shapeCast_ab_1ab_apply _ Facts₀.shapeCasts_S1x1024_S1x1x1024 (0 : Fin 1) (0 : Fin 1) r).trans ?_
  exact ofBits_top

theorem pay5_apply (mm : Fin 8192) : k0_pay5 (F := Ideal) (ix3 (0 : Fin 1) (0 : Fin 1) mm) = (⊤ : EReal) := by
  unfold k0_pay5
  refine (shapeCast_ab_1ab_apply _ Facts₀.shapeCasts_S1x8192_S1x1x8192 (0 : Fin 1) (0 : Fin 1) mm).trans ?_
  exact ofBits_top

/-! ## The second running block after a point -/

theorem stepY_apply (t : Fin cfg0.N) (x0 x1 : Vec Ideal S1x1024x3 .f32) (q : Vec Ideal S1x1x8192 .f32) (mm : Fin 8192) :
    stepY (grid0.coords t) x0 x1 q (ix3 (0 : Fin 1) (0 : Fin 1) mm) =
      if mm.val / 1024 = t.val % 8 then
        min (q (ix3 (0 : Fin 1) (0 : Fin 1) mm))
          (⨅ r : Fin 1024, tileD x0 x1 (ix2 r (⟨mm.val % 1024, Nat.mod_lt _ (by norm_num)⟩ : Fin 1024)))
      else q (ix3 (0 : Fin 1) (0 : Fin 1) mm) := by
  obtain ⟨o0, o1, o2⟩ := off_facts t
  have hmm := mm.isLt
  unfold stepY putY
  by_cases h : mm.val / 1024 = t.val % 8
  · rw [if_pos h]
    have hin : ∀ a, (k0_off1 (grid0.coords t)) a ≤ ((ix3 (0 : Fin 1) (0 : Fin 1) mm : S1x1x8192.Idx) a).val
        ∧ ((ix3 (0 : Fin 1) (0 : Fin 1) mm : S1x1x8192.Idx) a).val < (k0_off1 (grid0.coords t)) a + S1x1x1024.size a := by
      intro a
      match a with
      | ⟨0, _⟩ => show k0_off1 (grid0.coords t) (0 : Fin 3) ≤ 0 ∧ 0 < k0_off1 (grid0.coords t) (0 : Fin 3) + 1; omega
      | ⟨1, _⟩ => show k0_off1 (grid0.coords t) (1 : Fin 3) ≤ 0 ∧ 0 < k0_off1 (grid0.coords t) (1 : Fin 3) + 1; omega
      | ⟨2, _⟩ => show k0_off1 (grid0.coords t) (2 : Fin 3) ≤ mm.val ∧ mm.val < k0_off1 (grid0.coords t) (2 : Fin 3) + 1024; omega
    refine (dif_pos hin).trans ?_
    have hl : (Rect.unitLocal (s := S1x1x8192) (off := k0_off1 (grid0.coords t)) (size := S1x1x1024.size)
        (ix3 (0 : Fin 1) (0 : Fin 1) mm) hin : S1x1x1024.Idx)
          = ix3 (0 : Fin 1) (0 : Fin 1) (⟨mm.val % 1024, Nat.mod_lt _ (by norm_num)⟩ : Fin 1024) := by
      funext a; apply Fin.ext
      match a with
      | ⟨0, _⟩ => show 0 - k0_off1 (grid0.coords t) (0 : Fin 3) = 0; omega
      | ⟨1, _⟩ => show 0 - k0_off1 (grid0.coords t) (1 : Fin 3) = 0; omega
      | ⟨2, _⟩ => show mm.val - k0_off1 (grid0.coords t) (2 : Fin 3) = mm.val % 1024; omega
    rw [hl]
    unfold k0_pay3
    refine (shapeCast_ab_1ab_apply _ Facts₀.shapeCasts_S1x1024_S1x1x1024 (0 : Fin 1) (0 : Fin 1) _).trans ?_
    refine congrArg₂ min ?_ ?_
    · refine (shapeCast_1ab_ab_apply _ Facts₀.shapeCasts_S1x1x1024_S1x1024 (0 : Fin 1) _).trans ?_
      show q ((colRect (grid0.coords t)).idx (ix3 (0 : Fin 1) (0 : Fin 1) (⟨mm.val % 1024, Nat.mod_lt _ (by norm_num)⟩ : Fin 1024)))
        = q (ix3 (0 : Fin 1) (0 : Fin 1) mm)
      refine congrArg q (funext fun a => Fin.ext ?_)
      match a with
      | ⟨0, _⟩ => show k0_off1 (grid0.coords t) (0 : Fin 3) + 1 * 0 = 0; omega
      | ⟨1, _⟩ => show k0_off1 (grid0.coords t) (1 : Fin 3) + 1 * 0 = 0; omega
      | ⟨2, _⟩ => show k0_off1 (grid0.coords t) (2 : Fin 3) + 1 * (mm.val % 1024) = mm.val; omega
    · refine (shapeCast_a_1a_apply _ Facts₀.shapeCasts_S1024_S1x1024 (0 : Fin 1) _).trans ?_
      exact colMin_apply _ _ _ _ _
  · rw [if_neg h]
    refine dif_neg fun hall => h ?_
    have h2 : k0_off1 (grid0.coords t) (2 : Fin 3) ≤ mm.val ∧ mm.val < k0_off1 (grid0.coords t) (2 : Fin 3) + 1024 := hall 2
    omega

end Cert.KernelIdeal.Hand

end
-- ==== Proof.KernelIdealValue.Arrays.lean ====
/-
  The two output arrays after the run.

  Row (b, n) of the first ends at the minimum over every point m of the second cloud of the clamped squared distance
  from point n of the first; row (b, m) of the second at the minimum over every point n of the first cloud. The
  running blocks reach these values step by step: after the point at position j of its row of tiles the first block
  holds the minimum over the first j + 1 column tiles; after the point at position s of its batch the second holds, at a
  column of tile jm, the minimum over the row tiles i with 8·i + jm ≤ s. Each block is written back exactly when its
  sweep is complete, and the written blocks tile the arrays.
-/
import proofs.«153669_j28114855920185_2_alg».proof.Proof.KernelIdealValue.Blocks

set_option maxRecDepth 16384

noncomputable section

namespace Cert.KernelIdeal.Hand

open Idealize.ShloMosaic Idealize.ShloMosaic.TcCoe Idealize.ShloMosaic.ValueIdx Cert.Chamfer
open Idealize.SL.Sem
open Idealize.ShloMosaic.Pipeline (Dat Cfg Window)
open Cert.KernelIdeal.Gen Cert.KernelIdeal.Facts₀

variable (m : (ℓ : Loc nD τ sig) → Buf (Elt Ideal) ℓ)

/-! ## The first cloud's minima -/

/-- One point lowers the bound from its position in the row of tiles to the next. -/
theorem stepX_at (c : Dev nD) (t : Fin cfg0.N) (r : Fin 1024) (p : Vec Ideal S1x1x1024 .f32)
    (hp : p (ix3 (0 : Fin 1) (0 : Fin 1) r) = minBelow (fun mm => dist m c (bOf t) (rowX t r) mm) (t.val % 8)) :
    stepX (iblk m c 0 t) (iblk m c 1 t) p (ix3 (0 : Fin 1) (0 : Fin 1) r)
      = minBelow (fun mm => dist m c (bOf t) (rowX t r) mm) (t.val % 8 + 1) := by
  refine (stepX_apply _ _ p r).trans ?_
  refine (congrArg₂ min hp (iInf_congr fun cc => tile_at m c t r cc)).trans ?_
  exact minBelow_step (fun mm => dist m c (bOf t) (rowX t r) mm) (t.val % 8) (Nat.mod_lt _ (by norm_num))

/-- After point n the first running block holds, at row r, the minimum over the column tiles up to the point's. -/
theorem outX_apply (c : Dev nD) (n : ℕ) : ∀ (hn : n < cfg0.N) (r : Fin 1024),
    outX m c n hn (ix3 (0 : Fin 1) (0 : Fin 1) r)
      = minBelow (fun mm => dist m c (bOf ⟨n, hn⟩) (rowX ⟨n, hn⟩ r) mm) (n % 8 + 1) := by
  induction n using Nat.strong_induction_on with
  | _ n ih =>
    intro hn r
    have hN : n < 256 := lt_of_lt_of_eq hn N_0
    by_cases h : n % 8 = 0
    · rw [outX_start m c ⟨n, hn⟩ h]
      refine stepX_at m c ⟨n, hn⟩ r _ ?_
      rw [pay4_apply]
      show (⊤ : EReal) = minBelow _ (n % 8)
      rw [h, minBelow_zero]
    · rw [outX_next m c ⟨n, hn⟩ h]
      refine stepX_at m c ⟨n, hn⟩ r _ ?_
      have hn' : n - 1 < cfg0.N := Nat.lt_of_le_of_lt (Nat.sub_le _ _) hn
      have hb : bOf ⟨n - 1, hn'⟩ = bOf ⟨n, hn⟩ := Fin.ext (by show (n - 1) / 64 = n / 64; omega)
      have hr : rowX ⟨n - 1, hn'⟩ r = rowX ⟨n, hn⟩ r :=
        Fin.ext (by show 1024 * ((n - 1) / 8 % 8) + r.val = 1024 * (n / 8 % 8) + r.val; omega)
      refine (ih (n - 1) (by omega) hn' r).trans ?_
      rw [hb, hr, show (n - 1) % 8 + 1 = n % 8 by omega]

/-- At the last point of a row of tiles the block holds the minimum over the whole second cloud. -/
theorem outX_flush (c : Dev nD) (t : Fin cfg0.N) (h7 : t.val % 8 = 7) (y : S1x1x1024.Idx) :
    outX m c t.val t.isLt y = ⨅ mm : Fin 8192, dist m c (bOf t) (rowX t (y 2)) mm := by
  obtain ⟨r, rfl⟩ : ∃ r : Fin 1024, y = ix3 (0 : Fin 1) (0 : Fin 1) r := ⟨y 2, funext fun a => Fin.ext (by
    match a with
    | ⟨0, _⟩ => have : (y 0).val < 1 := (y 0).isLt; show (y 0).val = 0; omega
    | ⟨1, _⟩ => have : (y 1).val < 1 := (y 1).isLt; show (y 1).val = 0; omega
    | ⟨2, _⟩ => rfl)⟩
  refine (outX_apply m c t.val t.isLt r).trans ?_
  rw [h7]
  exact minBelow_all _

/-- What the first output array ends holding. -/
def GX (c : Dev nD) : S4x1x8192.Idx → EReal := fun i => ⨅ mm : Fin 8192, dist m c (i 0) (i 2) mm

theorem flushed2_eq (c : Dev nD) (t : Fin cfg0.N) (hf : (cfg0.win 2).flush t = true) :
    (dats m 0 c).flushed 2 t = ((cfg0.win 2).blk t).view.read (Elt Ideal) (GX m c) := by
  have h7 : t.val % 8 = 7 := (flush0_2 t).mp hf
  obtain ⟨-, -, -, -, -, -, e0, e1, e2, -⟩ := idx_facts t
  show (cfg0.win 2).cut (grid0.coords t) ((dats m 0 c).after 2 t) = _
  rw [after_2]
  funext j
  show outX m c t.val t.isLt j = GX m c (((cfg0.win 2).blk t).view.emb j)
  refine (outX_flush m c t h7 j).trans ?_
  refine iInf_congr fun mm => ?_
  refine congrArg₂ (fun b n => dist m c b n mm) (Fin.ext ?_) (Fin.ext ?_)
  · show t.val / 64 = win0_2.index t (0 : Fin 3) * 1 + 1 * (j 0).val
    have : (j 0).val < 1 := (j 0).isLt
    omega
  · show 1024 * (t.val / 8 % 8) + (j 2).val = win0_2.index t (2 : Fin 3) * 1024 + 1 * (j 2).val
    omega

theorem mem_blk2 (t : Fin cfg0.N) (i : S4x1x8192.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

theorem cover2 (i : S4x1x8192.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hlt : 64 * (i 0).val + 8 * ((i 2).val / 1024) + 7 < cfg0.N := lt_of_lt_of_eq (by omega) N_0.symm
  obtain ⟨-, -, -, -, -, -, e0, e1, e2, -⟩ := idx_facts ⟨_, hlt⟩
  have e0' : win0_2.index ⟨_, hlt⟩ (0 : Fin 3) = (64 * (i 0).val + 8 * ((i 2).val / 1024) + 7) / 64 := e0
  have e1' : win0_2.index ⟨_, hlt⟩ (1 : Fin 3) = 0 := e1
  have e2' : win0_2.index ⟨_, hlt⟩ (2 : Fin 3) = (64 * (i 0).val + 8 * ((i 2).val / 1024) + 7) / 8 % 8 := e2
  refine ⟨⟨_, hlt⟩, (flush0_2 _).mpr (by show (64 * (i 0).val + 8 * ((i 2).val / 1024) + 7) % 8 = 7; omega), ?_⟩
  rw [mem_blk2]
  intro a
  match a with
  | ⟨0, _⟩ =>
    show win0_2.index ⟨_, hlt⟩ (0 : Fin 3) * 1 ≤ (i 0).val ∧ (i 0).val < win0_2.index ⟨_, hlt⟩ (0 : Fin 3) * 1 + 1
    omega
  | ⟨1, _⟩ =>
    show win0_2.index ⟨_, hlt⟩ (1 : Fin 3) * 1 ≤ (i 1).val ∧ (i 1).val < win0_2.index ⟨_, hlt⟩ (1 : Fin 3) * 1 + 1
    omega
  | ⟨2, _⟩ =>
    show win0_2.index ⟨_, hlt⟩ (2 : Fin 3) * 1024 ≤ (i 2).val ∧ (i 2).val < win0_2.index ⟨_, hlt⟩ (2 : Fin 3) * 1024 + 1024
    omega

/-- The first output array after the run. -/
theorem final2 (c : Dev nD) : (dats m 0 c).arrAt 2 cfg0.N = GX m c :=
  (dats m 0 c).arrAt_eq_of_cover 2 (GX m c) (fun t hf => flushed2_eq m c t hf) cover2

/-! ## The second cloud's minima -/

/-- One point moves the bound on by one position of the batch's sweep: it lowers the columns of its own slice and leaves
    the others. -/
theorem stepY_at (c : Dev nD) (t : Fin cfg0.N) (mm : Fin 8192) (q : Vec Ideal S1x1x8192 .f32)
    (hq : q (ix3 (0 : Fin 1) (0 : Fin 1) mm) = minBefore (fun n => dist m c (bOf t) n mm) (mm.val / 1024) (t.val % 64)) :
    stepY (grid0.coords t) (iblk m c 0 t) (iblk m c 1 t) q (ix3 (0 : Fin 1) (0 : Fin 1) mm)
      = minBefore (fun n => dist m c (bOf t) n mm) (mm.val / 1024) (t.val % 64 + 1) := by
  have hmm := mm.isLt
  refine (stepY_apply t _ _ q mm).trans ?_
  by_cases h : mm.val / 1024 = t.val % 8
  · rw [if_pos h, hq]
    have hrow : ∀ r : Fin 1024,
        tileD (iblk m c 0 t) (iblk m c 1 t) (ix2 r (⟨mm.val % 1024, Nat.mod_lt _ (by norm_num)⟩ : Fin 1024))
          = dist m c (bOf t) (⟨1024 * (t.val % 64 / 8) + r.val, by have := r.isLt; omega⟩ : Fin 8192) mm := fun r => by
      refine (tile_at m c t r _).trans ?_
      refine congrArg₂ (dist m c (bOf t)) (Fin.ext ?_) (Fin.ext ?_)
      · show 1024 * (t.val / 8 % 8) + r.val = 1024 * (t.val % 64 / 8) + r.val; omega
      · show 1024 * (t.val % 8) + mm.val % 1024 = mm.val; omega
    refine (congrArg (min _) (iInf_congr hrow)).trans ?_
    exact minBefore_hit (fun n => dist m c (bOf t) n mm) (mm.val / 1024) (t.val % 64) (Nat.mod_lt _ (by norm_num)) (by omega)
  · rw [if_neg h, hq]
    exact minBefore_miss (fun n => dist m c (bOf t) n mm) (mm.val / 1024) (t.val % 64) (by omega) (by omega)

/-- After point n the second running block holds, at column mm, the minimum over the row tiles met so far. -/
theorem outY_apply (c : Dev nD) (n : ℕ) : ∀ (hn : n < cfg0.N) (mm : Fin 8192),
    outY m c n hn (ix3 (0 : Fin 1) (0 : Fin 1) mm)
      = minBefore (fun nn => dist m c (bOf ⟨n, hn⟩) nn mm) (mm.val / 1024) (n % 64 + 1) := by
  induction n using Nat.strong_induction_on with
  | _ n ih =>
    intro hn mm
    have hN : n < 256 := lt_of_lt_of_eq hn N_0
    by_cases h : n % 64 = 0
    · rw [outY_start m c ⟨n, hn⟩ h]
      refine stepY_at m c ⟨n, hn⟩ mm _ ?_
      rw [pay5_apply]
      show (⊤ : EReal) = minBefore _ _ (n % 64)
      rw [h, minBefore_zero]
    · rw [outY_next m c ⟨n, hn⟩ h]
      refine stepY_at m c ⟨n, hn⟩ mm _ ?_
      have hn' : n - 1 < cfg0.N := Nat.lt_of_le_of_lt (Nat.sub_le _ _) hn
      have hb : bOf ⟨n - 1, hn'⟩ = bOf ⟨n, hn⟩ := Fin.ext (by show (n - 1) / 64 = n / 64; omega)
      refine (ih (n - 1) (by omega) hn' mm).trans ?_
      rw [hb, show (n - 1) % 64 + 1 = n % 64 by omega]

/-- At the last point of a batch the block holds the minimum over the whole first cloud. -/
theorem outY_flush (c : Dev nD) (t : Fin cfg0.N) (h63 : t.val % 64 = 63) (y : S1x1x8192.Idx) :
    outY m c t.val t.isLt y = ⨅ n : Fin 8192, dist m c (bOf t) n (y 2) := by
  obtain ⟨mm, rfl⟩ : ∃ mm : Fin 8192, y = ix3 (0 : Fin 1) (0 : Fin 1) mm := ⟨y 2, funext fun a => Fin.ext (by
    match a with
    | ⟨0, _⟩ => have : (y 0).val < 1 := (y 0).isLt; show (y 0).val = 0; omega
    | ⟨1, _⟩ => have : (y 1).val < 1 := (y 1).isLt; show (y 1).val = 0; omega
    | ⟨2, _⟩ => rfl)⟩
  refine (outY_apply m c t.val t.isLt mm).trans ?_
  rw [h63]
  exact minBefore_all _ _ (by have := mm.isLt; omega)

/-- What the second output array ends holding. -/
def GY (c : Dev nD) : S4x1x8192.Idx → EReal := fun i => ⨅ n : Fin 8192, dist m c (i 0) n (i 2)

theorem flushed3_eq (c : Dev nD) (t : Fin cfg0.N) (hf : (cfg0.win 3).flush t = true) :
    (dats m 0 c).flushed 3 t = ((cfg0.win 3).blk t).view.read (Elt Ideal) (GY m c) := by
  have h63 : t.val % 64 = 63 := (flush0_3 t).mp hf
  obtain ⟨-, -, -, -, -, -, -, -, -, e0, e1, e2⟩ := idx_facts t
  show (cfg0.win 3).cut (grid0.coords t) ((dats m 0 c).after 3 t) = _
  rw [after_3]
  funext j
  show outY m c t.val t.isLt j = GY m c (((cfg0.win 3).blk t).view.emb j)
  refine (outY_flush m c t h63 j).trans ?_
  refine iInf_congr fun n => ?_
  refine congrArg₂ (fun b mm => dist m c b n mm) (Fin.ext ?_) (Fin.ext ?_)
  · show t.val / 64 = win0_3.index t (0 : Fin 3) * 1 + 1 * (j 0).val
    have : (j 0).val < 1 := (j 0).isLt
    omega
  · show (j 2).val = win0_3.index t (2 : Fin 3) * 8192 + 1 * (j 2).val
    omega

theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

theorem cover3 (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hlt : 64 * (i 0).val + 63 < cfg0.N := lt_of_lt_of_eq (by omega) N_0.symm
  obtain ⟨-, -, -, -, -, -, -, -, -, e0, e1, e2⟩ := idx_facts ⟨_, hlt⟩
  have e0' : win0_3.index ⟨_, hlt⟩ (0 : Fin 3) = (64 * (i 0).val + 63) / 64 := e0
  have e1' : win0_3.index ⟨_, hlt⟩ (1 : Fin 3) = 0 := e1
  have e2' : win0_3.index ⟨_, hlt⟩ (2 : Fin 3) = 0 := e2
  refine ⟨⟨_, hlt⟩, (flush0_3 _).mpr (by show (64 * (i 0).val + 63) % 64 = 63; omega), ?_⟩
  rw [mem_blk3]
  intro a
  match a with
  | ⟨0, _⟩ =>
    show win0_3.index ⟨_, hlt⟩ (0 : Fin 3) * 1 ≤ (i 0).val ∧ (i 0).val < win0_3.index ⟨_, hlt⟩ (0 : Fin 3) * 1 + 1
    omega
  | ⟨1, _⟩ =>
    show win0_3.index ⟨_, hlt⟩ (1 : Fin 3) * 1 ≤ (i 1).val ∧ (i 1).val < win0_3.index ⟨_, hlt⟩ (1 : Fin 3) * 1 + 1
    omega
  | ⟨2, _⟩ =>
    show win0_3.index ⟨_, hlt⟩ (2 : Fin 3) * 8192 ≤ (i 2).val ∧ (i 2).val < win0_3.index ⟨_, hlt⟩ (2 : Fin 3) * 8192 + 8192
    omega

/-- The second output array after the run. -/
theorem final3 (c : Dev nD) : (dats m 0 c).arrAt 3 cfg0.N = GY m c :=
  (dats m 0 c).arrAt_eq_of_cover 3 (GY m c) (fun t hf => flushed3_eq m c t hf) cover3

end Cert.KernelIdeal.Hand

end
-- ==== Proof.RefValue.lean ====
/-
  The reference, read entry by entry at the exact instance.

  Its table entry (b, n, m) is the clamped squared distance between point n of the first cloud and point m of the
  second in batch b, in the expanded form: the two squared norms (sums over the three coordinates, started at zero)
  added, less twice the inner product. Its two results before the means are the minimum of the table over m (one
  number per point of the first cloud) and over n (one per point of the second).
-/
import proofs.«153669_j28114855920185_2_alg».proof.Proof.Gen.ReferenceIdeal.Read
import proofs.«153669_j28114855920185_2_alg».proof.Proof.ChamferLaw
import proofs.«153669_j28114855920185_2_alg».proof.Proof.MinBlocks
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx Cert.Chamfer
open Cert.ReferenceIdeal Cert.ReferenceIdeal.Gen Cert.ReferenceIdeal.Read

/-- Entry (b, n, m) of the reference's table. -/
theorem table_apply (x0 x1 : (⟨S4x8192x3, .f32⟩ : BufTy).Contents (Elt Ideal)) (b : Fin 4) (n mm : Fin 8192) :
    val_main_v14 (F := Ideal) x0 x1 (ix3 b n mm)
      = sqDistExpanded (fun k => x0 (ix3 b n k)) (fun k => x1 (ix3 b mm k)) := by
  have e1 : ∀ k, idx_main_v1 (idx_main_v5 (idx_main_v7 (ix3 b n mm))) k = ix3 b n k := fun k =>
    funext fun a => Fin.ext (by match a with | ⟨0, _⟩ => rfl | ⟨1, _⟩ => rfl | ⟨2, _⟩ => rfl)
  have e3 : ∀ k, idx_main_v3 (idx_main_v6 (idx_main_v8 (ix3 b n mm))) k = ix3 b mm k := fun k =>
    funext fun a => Fin.ext (by match a with | ⟨0, _⟩ => rfl | ⟨1, _⟩ => rfl | ⟨2, _⟩ => rfl)
  have el : ∀ k, lidx_main_v4 (ix3 b n mm) k = ix3 b n k := fun k =>
    funext fun a => Fin.ext (by match a with | ⟨0, _⟩ => rfl | ⟨1, _⟩ => rfl | ⟨2, _⟩ => rfl)
  have er : ∀ k, ridx_main_v4 (ix3 b n mm) k = ix3 b mm k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_cst_1_apply,
    val_main_v4_apply, val_main_v13_apply, val_main_cst_2_apply, val_main_cst_apply, val_main_cst_0_apply]
  simp only [val_main_v0_apply, val_main_v2_apply, e1, e3, el, er, Ideal.maximumf_def, Ideal.addf_def, Ideal.subf_def,
    Ideal.mulf_def, Ideal.ofBits_def, Ideal.ofBits_zero_f32, ofBits_two]
  rfl

/-- The reference's minimum over the second cloud, at point n of the first. -/
theorem minOverSecond (x0 x1 : (⟨S4x8192x3, .f32⟩ : BufTy).Contents (Elt Ideal)) (b : Fin 4) (n : Fin 8192) :
    val_main_v15 (F := Ideal) x0 x1 (ix2 b n) = ⨅ mm : Fin 8192, val_main_v14 (F := Ideal) x0 x1 (ix3 b n mm) := by
  unfold val_main_v15
  generalize val_main_v14 (F := Ideal) x0 x1 = T
  rw [Host.reduce_eq_fold_single FloatOps.minimumf _ _ reducesTo_S4x8192x8192_S4x8192_d2 (by decide) h_S_ (ix2 b n),
    val_main_cst_3_apply, Ideal.ofBits_def, ofBits_top]
  refine (fold_min_top _).trans (iInf_congr fun mm => congrArg T (funext fun a => Fin.ext ?_))
  match a with
  | ⟨0, _⟩ => rfl
  | ⟨1, _⟩ => rfl
  | ⟨2, _⟩ => rfl

/-- The reference's minimum over the first cloud, at point m of the second. -/
theorem minOverFirst (x0 x1 : (⟨S4x8192x3, .f32⟩ : BufTy).Contents (Elt Ideal)) (b : Fin 4) (mm : Fin 8192) :
    val_main_v16 (F := Ideal) x0 x1 (ix2 b mm) = ⨅ n : Fin 8192, val_main_v14 (F := Ideal) x0 x1 (ix3 b n mm) := by
  unfold val_main_v16
  generalize val_main_v14 (F := Ideal) x0 x1 = T
  rw [Host.reduce_eq_fold_single FloatOps.minimumf _ _ reducesTo_S4x8192x8192_S4x8192_d1 (by decide) h_S_ (ix2 b mm),
    val_main_cst_4_apply, Ideal.ofBits_def, ofBits_top]
  refine (fold_min_top _).trans (iInf_congr fun n => congrArg T (funext fun a => Fin.ext ?_))
  match a with
  | ⟨0, _⟩ => rfl
  | ⟨1, _⟩ => rfl
  | ⟨2, _⟩ => rfl

end Cert.ReferenceIdeal.RefValue

end
-- ==== Proof.KernelIdealValue.Result.lean ====
/-
  The kernel's result.

  After the region the host program drops the unit axis of each output array, sums each over all its entries, divides
  each sum by 32768 and adds the two quotients. So the result is one fixed function (`meansSum`) of the two arrays of
  minima — the same function the reference applies to its own two arrays of minima, which at real-valued inputs are the
  same arrays: the minimum over the second cloud of the clamped squared distances from each point of the first, and
  the minimum over the first cloud for each point of the second, the distances equal by the expansion law.
-/
import proofs.«153669_j28114855920185_2_alg».proof.Proof.KernelIdealValue.Arrays
import proofs.«153669_j28114855920185_2_alg».proof.Proof.RefValue
import Idealize.ShloMosaic.Lib.StableHlo.Run

set_option maxRecDepth 16384

noncomputable section

namespace Cert.KernelIdeal.Hand

open Idealize.ShloMosaic Idealize.ShloMosaic.TcCoe Idealize.ShloMosaic.ValueIdx Cert.Chamfer
open Idealize.SL.Sem
open Idealize.ShloMosaic.Pipeline (Dat Cfg Window)
open Cert.KernelIdeal.Gen Cert.KernelIdeal.Facts₀

variable (m : (ℓ : Loc nD τ sig) → Buf (Elt Ideal) ℓ) (ρ : Dev nD → PrngReg)

/-- The mean of each of two 4 × 8192 arrays, added. -/
def meansSum (cx cy : FVec Ideal S4x8192 .f32) : FVec Ideal S_ .f32 :=
  addf (F := Ideal)
    (Host.divf (F := Ideal) (Host.reduceAdd (F := Ideal) cx (constant (F := Ideal) S_ .f32 0x00000000#32) Facts₀.reducesTo_S4x8192_S_d0_1 Facts₀.h_S_)
      (constant (F := Ideal) S_ .f32 0x47000000#32))
    (Host.divf (F := Ideal) (Host.reduceAdd (F := Ideal) cy (constant (F := Ideal) S_ .f32 0x00000000#32) Facts₀.reducesTo_S4x8192_S_d0_1 Facts₀.h_S_)
      (constant (F := Ideal) S_ .f32 0x47000000#32))

/-- Dropping the unit axis: entry (b, n) of the 4 × 8192 array is entry (b, 0, n) of the 4 × 1 × 8192 one. -/
theorem squeeze_apply {α : Type} (G : S4x1x8192.Idx → α) (h : S4x1x8192.ShapeCasts S4x8192) (b : Fin 4) (n : Fin 8192) :
    shapeCast S4x8192 G h (ix2 b n) = G (ix3 b (0 : Fin 1) n) :=
  shapeCast_apply G h _ _ (by
    rw [Shape.rowMajor_val_three, Shape.rowMajor_val_two]
    show (b.val * 1 + 0) * 8192 + n.val = b.val * 8192 + n.val
    omega)

/-- The result buffer after the host operations that follow the region. -/
theorem result_eq (c : Dev nD) :
    Pipeline.afterTail₀ cfgs (dats m) 0 (V0 m) [hostOps1] c main_v7
      = meansSum (shapeCast S4x8192 (GX m c) Facts₀.shapeCasts_S4x1x8192_S4x8192)
          (shapeCast S4x8192 (GY m c) Facts₀.shapeCasts_S4x1x8192_S4x8192) := by
  have e2 : Pipeline.withArrays (cfgs 0).spec c (V0 m c) (fun w => (dats m 0 c).arrAt w (cfgs 0).N) (Proc.devRef .tc main_v0_0) = GX m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = GY m c :=
    (Pipeline.withArrays_arr spec0 launch0.win.arr_inj c _ _ 3).trans (final3 m c)
  unfold Pipeline.afterTail₀
  show StableHlo.after hostOps1 _ (Proc.devRef .tc main_v7) = _
  after_results
  rw [e2, e3]
  rfl

/-- The run, read: the result at `meansSum` of the two arrays of minima, the arguments unchanged. -/
theorem run_value : θ_run defs (onTc (τ := τ) (main (F := Ideal))) ⟨m, fun _ => 0, ρ⟩ (fun r => ∀ c : Dev nD,
      r.2.mem ((c.tc : Thread nD τ).loc main_v7)
        = meansSum (shapeCast S4x8192 (GX m c) Facts₀.shapeCasts_S4x1x8192_S4x8192)
            (shapeCast S4x8192 (GY m c) Facts₀.shapeCasts_S4x1x8192_S4x8192)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 rfl (fun w => by fin_cases w <;> decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The two arrays of minima are the reference's -/

open Cert.ReferenceIdeal.Read Cert.ReferenceIdeal.RefValue in
/-- With every entry of both argument arrays real, the kernel's first array of minima, its unit axis dropped, is the
    reference's minimum over the second cloud, -/
theorem firstMin_eq (c : Dev nD) (X Y : S4x8192x3.Idx → EReal)
    (hX : (V m c main_arg0 : S4x8192x3.Idx → EReal) = X) (hY : (V m c main_arg1 : S4x8192x3.Idx → EReal) = Y)
    (h0 : ∀ i, X i ≠ ⊤ ∧ X i ≠ ⊥) (h1 : ∀ i, Y i ≠ ⊤ ∧ Y i ≠ ⊥) :
    (shapeCast S4x8192 (GX m c) Facts₀.shapeCasts_S4x1x8192_S4x8192 : S4x8192.Idx → EReal)
      = val_main_v15 (F := Ideal) X Y := by
  funext i
  obtain ⟨b, n, rfl⟩ : ∃ (b : Fin 4) (n : Fin 8192), i = ix2 b n := ⟨i 0, i 1, eq_ix2 i⟩
  refine (squeeze_apply _ _ b n).trans ?_
  refine Eq.trans ?_ (minOverSecond _ _ b n).symm
  unfold GX
  refine iInf_congr fun mm => ?_
  refine Eq.trans ?_ (table_apply _ _ b n mm).symm
  subst hX hY
  exact sqDist_eq _ _ (fun k => h0 _) (fun k => h1 _)

open Cert.ReferenceIdeal.Read Cert.ReferenceIdeal.RefValue in
/-- and its second the reference's minimum over the first cloud. -/
theorem secondMin_eq (c : Dev nD) (X Y : S4x8192x3.Idx → EReal)
    (hX : (V m c main_arg0 : S4x8192x3.Idx → EReal) = X) (hY : (V m c main_arg1 : S4x8192x3.Idx → EReal) = Y)
    (h0 : ∀ i, X i ≠ ⊤ ∧ X i ≠ ⊥) (h1 : ∀ i, Y i ≠ ⊤ ∧ Y i ≠ ⊥) :
    (shapeCast S4x8192 (GY m c) Facts₀.shapeCasts_S4x1x8192_S4x8192 : S4x8192.Idx → EReal)
      = val_main_v16 (F := Ideal) X Y := by
  funext i
  obtain ⟨b, n, rfl⟩ : ∃ (b : Fin 4) (n : Fin 8192), i = ix2 b n := ⟨i 0, i 1, eq_ix2 i⟩
  refine (squeeze_apply _ _ b n).trans ?_
  refine Eq.trans ?_ (minOverFirst _ _ b n).symm
  unfold GY
  refine iInf_congr fun nn => ?_
  refine Eq.trans ?_ (table_apply _ _ b nn n).symm
  subst hX hY
  exact sqDist_eq _ _ (fun k => h0 _) (fun k => h1 _)

/-- The reference's result is `meansSum` of its two arrays of minima. -/
theorem ref_result (x0 x1 : S4x8192x3.Idx → EReal) :
    Cert.ReferenceIdeal.Read.val_main_v21 (F := Ideal) x0 x1
      = meansSum (Cert.ReferenceIdeal.Read.val_main_v15 (F := Ideal) x0 x1) (Cert.ReferenceIdeal.Read.val_main_v16 (F := Ideal) x0 x1) := rfl

end Cert.KernelIdeal.Hand

end
-- ==== Proof.Finite.lean ====
/-
  The precondition, read back: every entry of both argument arrays is a real number.

  The printed predicate compares each entry's absolute value with +∞ and takes the conjunction over all entries of both
  arrays. On the extended reals, |x| < +∞ says exactly that x is neither infinity.
-/
import proofs.«153669_j28114855920185_2_alg».proof.Pre_finite_inputs
import proofs.«153669_j28114855920185_2_alg».proof.Proof.ChamferLaw
import Idealize.ShloMosaic.Lib.ReduceAll
import Idealize.ShloMosaic.Lib.ValueIdx
import Idealize.ShloMosaic.PureOps.Ideal

set_option maxRecDepth 16384

noncomputable section

namespace Cert.Pre_finite_inputs.Hand

open Idealize.ShloMosaic Cert.Pre_finite_inputs Cert.Chamfer

variable [Facts]

instance : Subsingleton S_.Idx := ⟨fun a b => funext fun d => d.elim0⟩

/-- An extended real whose absolute value is below +∞ is neither infinity. -/
theorem finite_of_abs_lt (x : EReal)
    (h : Ideal.cmp .olt (max x (-x)) (Ideal.ofBits .f32 0x7F800000#32) = 1#1) : x ≠ ⊤ ∧ x ≠ ⊥ := by
  rw [ofBits_top] at h
  unfold Ideal.cmp at h
  have hlt : max x (-x) < ⊤ := by
    by_contra hn
    simp [hn] at h
  rw [max_lt_iff] at hlt
  refine ⟨ne_of_lt hlt.1, fun hb => ?_⟩
  rw [hb] at hlt
  simp at hlt

/-- Under the precondition every entry of both arrays is neither infinity. -/
theorem finite_of_pre (A B : FVec Ideal S4x8192x3 .f32) (h : fn (F := Ideal) A B = fun _ => 1#1) :
    (∀ i, (A i : EReal) ≠ ⊤ ∧ (A i : EReal) ≠ ⊥) ∧ (∀ i, (B i : EReal) ≠ ⊤ ∧ (B i : EReal) ≠ ⊥) := by
  have h0 := congrFun h ValueIdx.ix0
  dsimp only [fn] at h0
  obtain ⟨hA, hB⟩ := IntOp.andi_eq_one.1 h0
  refine ⟨fun i => ?_, fun i => ?_⟩
  · exact finite_of_abs_lt _ (Host.reduce_andi_all _ _ _ _ _ hA i)
  · exact finite_of_abs_lt _ (Host.reduce_andi_all _ _ _ _ _ hB i)

end Cert.Pre_finite_inputs.Hand

end
-- ==== Proof.lean ====
/-
  Chamfer distance between two batches of point clouds in ℝ³, squared Euclidean, both directions, each direction's
  nearest-neighbour distances averaged and the two averages added.

  The kernel sweeps a 4 × 8 × 8 grid (batch, tile of the first cloud, tile of the second). At each point it forms the
  1024 × 1024 table of clamped squared distances between the two tiles, coordinate by coordinate, and folds it into two
  running minima: per point of the first cloud over the second cloud's tiles seen so far in this row, and per point of
  the second cloud over the first cloud's tiles seen so far in this batch. Each running block starts from +∞ and is
  written back when its sweep is complete, so the two output arrays end at the minima over the whole other cloud; the
  host then takes the two means and adds them. The reference forms every squared distance at once from the two
  squared norms and the inner product, clamps, takes the same two minima and the same means.

  At the exact instance the two results are equal because (i) a minimum taken tile by tile, in any order, from +∞ is
  the minimum over all indices, and (ii) at real entries the sum of the three squared differences is the sum of the two
  squared norms less twice the inner product — a law that fails at infinite entries, which is where the precondition
  (every input entry finite) is used. The idealization changes nothing in the program's text, so `preserves` has no
  conjunct. The frames: the reference's is its run with the result dropped; the kernel's, at both instances, is the
  pipeline's frame run over proof data that name what the two running blocks hold after every point.
-/
import proofs.«153669_j28114855920185_2_alg».proof.Defs
import proofs.«153669_j28114855920185_2_alg».proof.Proof.Gen.Kernel
import proofs.«153669_j28114855920185_2_alg».proof.Proof.Gen.KernelIdeal
import proofs.«153669_j28114855920185_2_alg».proof.Proof.Gen.ReferenceIdeal
import proofs.«153669_j28114855920185_2_alg».proof.Proof.Gen.ReferenceIdeal.Read
import proofs.«153669_j28114855920185_2_alg».proof.Proof.Gen.Pre_finite_inputs
import proofs.«153669_j28114855920185_2_alg».proof.Proof.KernelBody.Data
import proofs.«153669_j28114855920185_2_alg».proof.Proof.KernelIdealValue.Result
import proofs.«153669_j28114855920185_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Hand.frame m ρ

/-- So does the kernel read at the exact instance. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact instance, from finite inputs that agree, both programs end at the sum of the two means of the same two
    arrays of nearest-neighbour squared distances. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hf0, hf1⟩ := Cert.Pre_finite_inputs.Hand.finite_of_pre _ _ (hpre c)
  rw [(hagree c).1, (hagree c).2, Cert.ReferenceIdeal.Read.val_main_v21_eq]
  exact (congrArg₂ Cert.KernelIdeal.Hand.meansSum (Cert.KernelIdeal.Hand.firstMin_eq m c _ _ rfl rfl hf0 hf1)
    (Cert.KernelIdeal.Hand.secondMin_eq m c _ _ rfl rfl hf0 hf1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
